-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x48 : Shape := ⟨2, ![96, 48]⟩
abbrev S48 : Shape := ⟨1, ![48]⟩
abbrev S48x48 : Shape := ⟨2, ![48, 48]⟩
abbrev S48x1 : Shape := ⟨2, ![48, 1]⟩
abbrev S1 : Shape := ⟨1, ![1]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x48 : S_.BroadcastsInDim S96x48 (![] : Fin 0 → Fin S96x48.rank)
  reducesTo_S96x48_S_d0_1 : S96x48.ReducesTo [0, 1] S_
  bcast_S_S48 : S_.BroadcastsInDim S48 (![] : Fin 0 → Fin S48.rank)
  reducesTo_S48_S_d0 : S48.ReducesTo [0] S_
  bcast_S_S48x48 : S_.BroadcastsInDim S48x48 (![] : Fin 0 → Fin S48x48.rank)
  reducesTo_S48x48_S_d0_1 : S48x48.ReducesTo [0, 1] S_
  bcast_S_S48x1 : S_.BroadcastsInDim S48x1 (![] : Fin 0 → Fin S48x1.rank)
  reducesTo_S48x1_S_d0_1 : S48x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S48x1 .f32) (main_v50 : FVec F S48x1 .f32) : IVec S_ 1 :=
  let main_v51 : IVec S48x1 1 := cmpf .olt main_v49 main_v50
  let main_c_19 : IVec S_ 1 := constantI S_ 1 1#1
  let main_v52 : IVec S_ 1 := (fun x v => Host.reduce IntOp.andi x v reducesTo_S48x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S48x48 .f32) (main_arg9 : FVec F S48x48 .f32) (main_arg10 : FVec F S48 .f32) (main_arg11 : FVec F S48x1 .f32) (main_arg12 : FVec F S1 .f32) (main_v33 : IVec S_ 1) : IVec S_ 1 :=
  let main_v34 : FVec F S48x48 .f32 := Host.absf main_arg8
  let main_cst_12 : FVec F S_ .f32 := constant S_ .f32 0x7F800000#32
  let main_v35 : FVec F S48x48 .f32 := broadcastInDim S48x48 ![] bcast_S_S48x48 main_cst_12
  let main_v36 : IVec S48x48 1 := cmpf .olt main_v34 main_v35
  let main_c_13 : IVec S_ 1 := constantI S_ 1 1#1
  let main_v37 : IVec S_ 1 := (fun x v => Host.reduce IntOp.andi x v reducesTo_S48x48_S_d0_1 h_S_) main_v36 main_c_13
  let main_v38 : IVec S_ 1 := andi main_v33 main_v37
  let main_v39 : FVec F S48x48 .f32 := Host.absf main_arg9
  let main_cst_14 : FVec F S_ .f32 := constant S_ .f32 0x7F800000#32
  let main_v40 : FVec F S48x48 .f32 := broadcastInDim S48x48 ![] bcast_S_S48x48 main_cst_14
  let main_v41 : IVec S48x48 1 := cmpf .olt main_v39 main_v40
  let main_c_15 : IVec S_ 1 := constantI S_ 1 1#1
  let main_v42 : IVec S_ 1 := (fun x v => Host.reduce IntOp.andi x v reducesTo_S48x48_S_d0_1 h_S_) main_v41 main_c_15
  let main_v43 : IVec S_ 1 := andi main_v38 main_v42
  let main_v44 : FVec F S48 .f32 := Host.absf main_arg10
  let main_cst_16 : FVec F S_ .f32 := constant S_ .f32 0x7F800000#32
  let main_v45 : FVec F S48 .f32 := broadcastInDim S48 ![] bcast_S_S48 main_cst_16
  let main_v46 : IVec S48 1 := cmpf .olt main_v44 main_v45
  let main_c_17 : IVec S_ 1 := constantI S_ 1 1#1
  let main_v47 : IVec S_ 1 := (fun x v => Host.reduce IntOp.andi x v reducesTo_S48_S_d0 h_S_) main_v46 main_c_17
  let main_v48 : IVec S_ 1 := andi main_v43 main_v47
  let main_v49 : FVec F S48x1 .f32 := Host.absf main_arg11
  let main_cst_18 : FVec F S_ .f32 := constant S_ .f32 0x7F800000#32
  let main_v50 : FVec F S48x1 .f32 := broadcastInDim S48x1 ![] bcast_S_S48x1 main_cst_18
  fn_part3 (F := F) main_arg12 main_v48 main_v49 main_v50

def fn_part1 {F : FTy → Type} [FloatOps F] (main_arg5 : FVec F S48x48 .f32) (main_arg6 : FVec F S48x48 .f32) (main_arg7 : FVec F S48 .f32) (main_arg8 : FVec F S48x48 .f32) (main_arg9 : FVec F S48x48 .f32) (main_arg10 : FVec F S48 .f32) (main_arg11 : FVec F S48x1 .f32) (main_arg12 : FVec F S1 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48x48 .f32 := Host.absf main_arg5
  let main_cst_6 : FVec F S_ .f32 := constant S_ .f32 0x7F800000#32
  let main_v20 : FVec F S48x48 .f32 := broadcastInDim S48x48 ![] bcast_S_S48x48 main_cst_6
  let main_v21 : IVec S48x48 1 := cmpf .olt main_v19 main_v20
  let main_c_7 : IVec S_ 1 := constantI S_ 1 1#1
  let main_v22 : IVec S_ 1 := (fun x v => Host.reduce IntOp.andi x v reducesTo_S48x48_S_d0_1 h_S_) main_v21 main_c_7
  let main_v23 : IVec S_ 1 := andi main_v18 main_v22
  let main_v24 : FVec F S48x48 .f32 := Host.absf main_arg6
  let main_cst_8 : FVec F S_ .f32 := constant S_ .f32 0x7F800000#32
  let main_v25 : FVec F S48x48 .f32 := broadcastInDim S48x48 ![] bcast_S_S48x48 main_cst_8
  let main_v26 : IVec S48x48 1 := cmpf .olt main_v24 main_v25
  let main_c_9 : IVec S_ 1 := constantI S_ 1 1#1
  let main_v27 : IVec S_ 1 := (fun x v => Host.reduce IntOp.andi x v reducesTo_S48x48_S_d0_1 h_S_) main_v26 main_c_9
  let main_v28 : IVec S_ 1 := andi main_v23 main_v27
  let main_v29 : FVec F S48 .f32 := Host.absf main_arg7
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x96 .f32) (main_arg1 : IVec S2x800000 32) (main_arg2 : FVec F S96x48 .f32) (main_arg3 : FVec F S96x48 .f32) (main_arg4 : FVec F S48 .f32) (main_arg5 : FVec F S48x48 .f32) (main_arg6 : FVec F S48x48 .f32) (main_arg7 : FVec F S48 .f32) (main_arg8 : FVec F S48x48 .f32) (main_arg9 : FVec F S48x48 .f32) (main_arg10 : FVec F S48 .f32) (main_arg11 : FVec F S48x1 .f32) (main_arg12 : FVec F S1 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x48 .f32 := Host.absf main_arg2
  let main_cst_0 : FVec F S_ .f32 := constant S_ .f32 0x7F800000#32
  let main_v5 : FVec F S96x48 .f32 := broadcastInDim S96x48 ![] bcast_S_S96x48 main_cst_0
  let main_v6 : IVec S96x48 1 := cmpf .olt main_v4 main_v5
  let main_c_1 : IVec S_ 1 := constantI S_ 1 1#1
  let main_v7 : IVec S_ 1 := (fun x v => Host.reduce IntOp.andi x v reducesTo_S96x48_S_d0_1 h_S_) main_v6 main_c_1
  let main_v8 : IVec S_ 1 := andi main_v3 main_v7
  let main_v9 : FVec F S96x48 .f32 := Host.absf main_arg3
  let main_cst_2 : FVec F S_ .f32 := constant S_ .f32 0x7F800000#32
  let main_v10 : FVec F S96x48 .f32 := broadcastInDim S96x48 ![] bcast_S_S96x48 main_cst_2
  let main_v11 : IVec S96x48 1 := cmpf .olt main_v9 main_v10
  let main_c_3 : IVec S_ 1 := constantI S_ 1 1#1
  let main_v12 : IVec S_ 1 := (fun x v => Host.reduce IntOp.andi x v reducesTo_S96x48_S_d0_1 h_S_) main_v11 main_c_3
  let main_v13 : IVec S_ 1 := andi main_v8 main_v12
  let main_v14 : FVec F S48 .f32 := Host.absf main_arg4
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg5 main_arg6 main_arg7 main_arg8 main_arg9 main_arg10 main_arg11 main_arg12 main_v13 main_v16
-- ==== Kernel.lean ====
abbrev S50000x96 : Shape := ⟨2, ![50000, 96]⟩
abbrev S2x800000 : Shape := ⟨2, ![2, 800000]⟩
abbrev S96x48 : Shape := ⟨2, ![96, 48]⟩
abbrev S48 : Shape := ⟨1, ![48]⟩
abbrev S48x48 : Shape := ⟨2, ![48, 48]⟩
abbrev S48x1 : Shape := ⟨2, ![48, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S50000x48 : Shape := ⟨2, ![50000, 48]⟩
abbrev S5000x96 : Shape := ⟨2, ![5000, 96]⟩
abbrev S5000x48 : Shape := ⟨2, ![5000, 48]⟩
abbrev S1x48 : Shape := ⟨2, ![1, 48]⟩
abbrev S800000x48 : Shape := ⟨2, ![800000, 48]⟩
abbrev S5000x1 : Shape := ⟨2, ![5000, 1]⟩
abbrev S1x1 : Shape := ⟨2, ![1, 1]⟩

abbrev nBuf : Space → Nat
  | .hbm => 79
  | .vmem => 33
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x48, .f32⟩
  | .hbm, ⟨3, _⟩ => ⟨S96x48, .f32⟩
  | .hbm, ⟨4, _⟩ => ⟨S48, .f32⟩
  | .hbm, ⟨5, _⟩ => ⟨S48x48, .f32⟩
  | .hbm, ⟨6, _⟩ => ⟨S48x48, .f32⟩
  | .hbm, ⟨7, _⟩ => ⟨S48, .f32⟩
  | .hbm, ⟨8, _⟩ => ⟨S48x48, .f32⟩
  | .hbm, ⟨9, _⟩ => ⟨S48x48, .f32⟩
  | .hbm, ⟨10, _⟩ => ⟨S48, .f32⟩
  | .hbm, ⟨11, _⟩ => ⟨S48x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S_, .f32⟩
  | .hbm, ⟨40, _⟩ => ⟨S50000x96, .f32⟩
  | .hbm, ⟨41, _⟩ => ⟨S800000x1, .i32⟩
  | .hbm, ⟨42, _⟩ => ⟨S50000x96, .f32⟩
  | .hbm, ⟨43, _⟩ => ⟨S50000x96, .f32⟩
  | .hbm, ⟨44, _⟩ => ⟨S50000x96, .f32⟩
  | .hbm, ⟨45, _⟩ => ⟨S50000x48, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x48, .f32⟩
  | .hbm, ⟨55, _⟩ => ⟨S_, .f32⟩
  | .hbm, ⟨56, _⟩ => ⟨S50000x48, .f32⟩
  | .hbm, ⟨57, _⟩ => ⟨S800000x1, .i32⟩
  | .hbm, ⟨58, _⟩ => ⟨S50000x48, .f32⟩
  | .hbm, ⟨59, _⟩ => ⟨S50000x48, .f32⟩
  | .hbm, ⟨60, _⟩ => ⟨S50000x48, .f32⟩
  | .hbm, ⟨61, _⟩ => ⟨S50000x48, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x48, .f32⟩
  | .hbm, ⟨71, _⟩ => ⟨S_, .f32⟩
  | .hbm, ⟨72, _⟩ => ⟨S50000x48, .f32⟩
  | .hbm, ⟨73, _⟩ => ⟨S800000x1, .i32⟩
  | .hbm, ⟨74, _⟩ => ⟨S50000x48, .f32⟩
  | .hbm, ⟨75, _⟩ => ⟨S50000x48, .f32⟩
  | .hbm, ⟨76, _⟩ => ⟨S50000x48, .f32⟩
  | .hbm, ⟨77, _⟩ => ⟨S50000x48, .f32⟩
  | .hbm, ⟨78, _⟩ => ⟨S50000x1, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x48, .f32⟩
  | .local _ .vmem, ⟨5, _⟩ => ⟨S96x48, .f32⟩
  | .local _ .vmem, ⟨6, _⟩ => ⟨S48, .f32⟩
  | .local _ .vmem, ⟨7, _⟩ => ⟨S5000x48, .f32⟩
  | .local _ .vmem, ⟨8, _⟩ => ⟨S5000x48, .f32⟩
  | .local _ .vmem, ⟨9, _⟩ => ⟨S5000x48, .f32⟩
  | .local _ .vmem, ⟨10, _⟩ => ⟨S5000x48, .f32⟩
  | .local _ .vmem, ⟨11, _⟩ => ⟨S5000x48, .f32⟩
  | .local _ .vmem, ⟨12, _⟩ => ⟨S5000x48, .f32⟩
  | .local _ .vmem, ⟨13, _⟩ => ⟨S48x48, .f32⟩
  | .local _ .vmem, ⟨14, _⟩ => ⟨S48x48, .f32⟩
  | .local _ .vmem, ⟨15, _⟩ => ⟨S48, .f32⟩
  | .local _ .vmem, ⟨16, _⟩ => ⟨S5000x48, .f32⟩
  | .local _ .vmem, ⟨17, _⟩ => ⟨S5000x48, .f32⟩
  | .local _ .vmem, ⟨18, _⟩ => ⟨S5000x48, .f32⟩
  | .local _ .vmem, ⟨19, _⟩ => ⟨S5000x48, .f32⟩
  | .local _ .vmem, ⟨20, _⟩ => ⟨S5000x48, .f32⟩
  | .local _ .vmem, ⟨21, _⟩ => ⟨S5000x48, .f32⟩
  | .local _ .vmem, ⟨22, _⟩ => ⟨S48x48, .f32⟩
  | .local _ .vmem, ⟨23, _⟩ => ⟨S48x48, .f32⟩
  | .local _ .vmem, ⟨24, _⟩ => ⟨S48, .f32⟩
  | .local _ .vmem, ⟨25, _⟩ => ⟨S5000x48, .f32⟩
  | .local _ .vmem, ⟨26, _⟩ => ⟨S5000x48, .f32⟩
  | .local _ .vmem, ⟨27, _⟩ => ⟨S5000x48, .f32⟩
  | .local _ .vmem, ⟨28, _⟩ => ⟨S5000x48, .f32⟩
  | .local _ .vmem, ⟨29, _⟩ => ⟨S48x1, .f32⟩
  | .local _ .vmem, ⟨30, _⟩ => ⟨S1, .f32⟩
  | .local _ .vmem, ⟨31, _⟩ => ⟨S5000x1, .f32⟩
  | .local _ .vmem, ⟨32, _⟩ => ⟨S5000x1, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S48x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S48x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x48 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x48 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S48x48 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S48x48 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S48 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x48 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x48 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S48x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  shapeCasts_S5000x96_S5000x96 : S5000x96.ShapeCasts S5000x96
  inb_S96x48_S96x48_0_0 : ∀ a, (![0, 0] : Fin 2 → Nat) a + S96x48.size a ≤ S96x48.size a
  h_S96x48 : 0 < S96x48.numel
  inb_S48_S48_0 : ∀ a, (![0] : Fin 1 → Nat) a + S48.size a ≤ S48.size a
  h_S48 : 0 < S48.numel
  shapeCasts_S48_S1x48 : S48.ShapeCasts S1x48
  broadcasts_S1x48_S5000x48 : S1x48.Broadcasts S5000x48
  inb_S5000x48_S5000x48_0_0 : ∀ a, (![0, 0] : Fin 2 → Nat) a + S5000x48.size a ≤ S5000x48.size a
  h_S5000x48 : 0 < S5000x48.numel
  bcast_S_S50000x48 : S_.BroadcastsInDim S50000x48 (![] : Fin 0 → Fin S50000x48.rank)
  bcast_S50000x1_S50000x48_0_1 : S50000x1.BroadcastsInDim S50000x48 (![0, 1] : Fin 2 → Fin S50000x48.rank)
  shapeCasts_S5000x48_S5000x48 : S5000x48.ShapeCasts S5000x48
  inb_S48x48_S48x48_0_0 : ∀ a, (![0, 0] : Fin 2 → Nat) a + S48x48.size a ≤ S48x48.size a
  h_S48x48 : 0 < S48x48.numel
  inb_S48x1_S48x1_0_0 : ∀ a, (![0, 0] : Fin 2 → Nat) a + S48x1.size a ≤ S48x1.size a
  h_S48x1 : 0 < S48x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x48_S5000x48_1_0_0_1_n_n_wf : DotDims.WF S5000x96 S96x48 S5000x48 [1] [0] [0] [1] [] []
  gather_S50000x48_S800000x1_S800000x48_1_0_n_n_0_1_148_wf : GatherDims.WF S50000x48 S800000x1 S800000x48 [1] [0] [] [0] [] 1 ![1, 48]
  scatter_S50000x48_S800000x1_S800000x48_1_0_0_1_wf : ScatterDims.WF S50000x48 S800000x1 S800000x48 [1] [0] [0] 1
  dot_S5000x48_S48x48_S5000x48_1_0_0_1_n_n_wf : DotDims.WF S5000x48 S48x48 S5000x48 [1] [0] [0] [1] [] []
  dot_S5000x48_S48x1_S5000x1_1_0_0_1_n_n_wf : DotDims.WF S5000x48 S48x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x48.size a ≤ S96x48.size a
  hwx0_2 : ∀ i : grid0.Coords, EltTy.bits .f32 = 32 ∨ (Rect.block (s := S96x48) S96x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x48.size a ≤ S96x48.size a
  hwx0_3 : ∀ i : grid0.Coords, EltTy.bits .f32 = 32 ∨ (Rect.block (s := S96x48) S96x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48.size a ≤ S48.size a
  hwx0_4 : ∀ i : grid0.Coords, EltTy.bits .f32 = 32 ∨ (Rect.block (s := S48) S48.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x48.size a ≤ S50000x48.size a
  hwx0_5 : ∀ i : grid0.Coords, EltTy.bits .f32 = 32 ∨ (Rect.block (s := S50000x48) S5000x48.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S50000x48.size a
  hwx1_0 : ∀ i : grid1.Coords, EltTy.bits .f32 = 32 ∨ (Rect.block (s := S50000x48) S5000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x48.size a ≤ S50000x48.size a
  hwx1_1 : ∀ i : grid1.Coords, EltTy.bits .f32 = 32 ∨ (Rect.block (s := S50000x48) S5000x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x48.size a ≤ S48x48.size a
  hwx1_2 : ∀ i : grid1.Coords, EltTy.bits .f32 = 32 ∨ (Rect.block (s := S48x48) S48x48.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S48x48.size a ≤ S48x48.size a
  hwx1_3 : ∀ i : grid1.Coords, EltTy.bits .f32 = 32 ∨ (Rect.block (s := S48x48) S48x48.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S48.size a ≤ S48.size a
  hwx1_4 : ∀ i : grid1.Coords, EltTy.bits .f32 = 32 ∨ (Rect.block (s := S48) S48.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x48.size a ≤ S50000x48.size a
  hwx1_5 : ∀ i : grid1.Coords, EltTy.bits .f32 = 32 ∨ (Rect.block (s := S50000x48) S5000x48.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x48.size a ≤ S50000x48.size a
  hwx2_0 : ∀ i : grid2.Coords, EltTy.bits .f32 = 32 ∨ (Rect.block (s := S50000x48) S5000x48.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x48.size a ≤ S50000x48.size a
  hwx2_1 : ∀ i : grid2.Coords, EltTy.bits .f32 = 32 ∨ (Rect.block (s := S50000x48) S5000x48.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S48x48.size a ≤ S48x48.size a
  hwx2_2 : ∀ i : grid2.Coords, EltTy.bits .f32 = 32 ∨ (Rect.block (s := S48x48) S48x48.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S48x48.size a ≤ S48x48.size a
  hwx2_3 : ∀ i : grid2.Coords, EltTy.bits .f32 = 32 ∨ (Rect.block (s := S48x48) S48x48.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S48.size a ≤ S48.size a
  hwx2_4 : ∀ i : grid2.Coords, EltTy.bits .f32 = 32 ∨ (Rect.block (s := S48) S48.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x48.size a ≤ S50000x48.size a
  hwx2_5 : ∀ i : grid2.Coords, EltTy.bits .f32 = 32 ∨ (Rect.block (s := S50000x48) S5000x48.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x48.size a ≤ S50000x48.size a
  hwx3_0 : ∀ i : grid3.Coords, EltTy.bits .f32 = 32 ∨ (Rect.block (s := S50000x48) S5000x48.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S48x1.size a ≤ S48x1.size a
  hwx3_1 : ∀ i : grid3.Coords, EltTy.bits .f32 = 32 ∨ (Rect.block (s := S48x1) S48x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1.size a ≤ S1.size a
  hwx3_2 : ∀ i : grid3.Coords, EltTy.bits .f32 = 32 ∨ (Rect.block (s := S1) S1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x48_S5000x48_1_0_0_1_n_n : DotDims S5000x96 S96x48 S5000x48 where
  lhsContracting := [1]
  rhsContracting := [0]
  lhsNonContracting := [0]
  rhsNonContracting := [1]
  lhsBatch := []
  rhsBatch := []
  wf := dot_S5000x96_S96x48_S5000x48_1_0_0_1_n_n_wf
def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def scatter_S50000x48_S800000x1_S800000x48_1_0_0_1 : ScatterDims S50000x48 S800000x1 S800000x48 where
  updateWindowDims := [1]
  insertedWindowDims := [0]
  scatterDimsToOperandDims := [0]
  indexVectorDim := 1
  wf := scatter_S50000x48_S800000x1_S800000x48_1_0_0_1_wf
def dot_S5000x48_S48x48_S5000x48_1_0_0_1_n_n : DotDims S5000x48 S48x48 S5000x48 where
  lhsContracting := [1]
  rhsContracting := [0]
  lhsNonContracting := [0]
  rhsNonContracting := [1]
  lhsBatch := []
  rhsBatch := []
  wf := dot_S5000x48_S48x48_S5000x48_1_0_0_1_n_n_wf
def dot_S5000x48_S48x1_S5000x1_1_0_0_1_n_n : DotDims S5000x48 S48x1 S5000x1 where
  lhsContracting := [1]
  rhsContracting := [0]
  lhsNonContracting := [0]
  rhsNonContracting := [1]
  lhsBatch := []
  rhsBatch := []
  wf := dot_S5000x48_S48x1_S5000x1_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x48.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S48x48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S48x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x48.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x48.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S48x48.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S48x48.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S48.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5000x48.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S5000x48.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S48x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x48 : Shape := ⟨2, ![96, 48]⟩
abbrev S48 : Shape := ⟨1, ![48]⟩
abbrev S48x48 : Shape := ⟨2, ![48, 48]⟩
abbrev S48x1 : Shape := ⟨2, ![48, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S50000x48 : Shape := ⟨2, ![50000, 48]⟩
abbrev S1x48 : Shape := ⟨2, ![1, 48]⟩
abbrev S800000x48 : Shape := ⟨2, ![800000, 48]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x48, .f32⟩
  | .hbm, ⟨3, _⟩ => ⟨S96x48, .f32⟩
  | .hbm, ⟨4, _⟩ => ⟨S48, .f32⟩
  | .hbm, ⟨5, _⟩ => ⟨S48x48, .f32⟩
  | .hbm, ⟨6, _⟩ => ⟨S48x48, .f32⟩
  | .hbm, ⟨7, _⟩ => ⟨S48, .f32⟩
  | .hbm, ⟨8, _⟩ => ⟨S48x48, .f32⟩
  | .hbm, ⟨9, _⟩ => ⟨S48x48, .f32⟩
  | .hbm, ⟨10, _⟩ => ⟨S48, .f32⟩
  | .hbm, ⟨11, _⟩ => ⟨S48x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S_, .f32⟩
  | .hbm, ⟨40, _⟩ => ⟨S50000x96, .f32⟩
  | .hbm, ⟨41, _⟩ => ⟨S800000x1, .i32⟩
  | .hbm, ⟨42, _⟩ => ⟨S50000x96, .f32⟩
  | .hbm, ⟨43, _⟩ => ⟨S50000x96, .f32⟩
  | .hbm, ⟨44, _⟩ => ⟨S50000x96, .f32⟩
  | .hbm, ⟨45, _⟩ => ⟨S50000x48, .f32⟩
  | .hbm, ⟨46, _⟩ => ⟨S50000x48, .f32⟩
  | .hbm, ⟨47, _⟩ => ⟨S50000x48, .f32⟩
  | .hbm, ⟨48, _⟩ => ⟨S1x48, .f32⟩
  | .hbm, ⟨49, _⟩ => ⟨S50000x48, .f32⟩
  | .hbm, ⟨50, _⟩ => ⟨S50000x48, .f32⟩
  | .hbm, ⟨51, _⟩ => ⟨S_, .f32⟩
  | .hbm, ⟨52, _⟩ => ⟨S50000x48, .f32⟩
  | .hbm, ⟨53, _⟩ => ⟨S50000x48, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x48, .f32⟩
  | .hbm, ⟨63, _⟩ => ⟨S_, .f32⟩
  | .hbm, ⟨64, _⟩ => ⟨S50000x48, .f32⟩
  | .hbm, ⟨65, _⟩ => ⟨S800000x1, .i32⟩
  | .hbm, ⟨66, _⟩ => ⟨S50000x48, .f32⟩
  | .hbm, ⟨67, _⟩ => ⟨S50000x48, .f32⟩
  | .hbm, ⟨68, _⟩ => ⟨S50000x48, .f32⟩
  | .hbm, ⟨69, _⟩ => ⟨S50000x48, .f32⟩
  | .hbm, ⟨70, _⟩ => ⟨S50000x48, .f32⟩
  | .hbm, ⟨71, _⟩ => ⟨S50000x48, .f32⟩
  | .hbm, ⟨72, _⟩ => ⟨S1x48, .f32⟩
  | .hbm, ⟨73, _⟩ => ⟨S50000x48, .f32⟩
  | .hbm, ⟨74, _⟩ => ⟨S50000x48, .f32⟩
  | .hbm, ⟨75, _⟩ => ⟨S_, .f32⟩
  | .hbm, ⟨76, _⟩ => ⟨S50000x48, .f32⟩
  | .hbm, ⟨77, _⟩ => ⟨S50000x48, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x48, .f32⟩
  | .hbm, ⟨87, _⟩ => ⟨S_, .f32⟩
  | .hbm, ⟨88, _⟩ => ⟨S50000x48, .f32⟩
  | .hbm, ⟨89, _⟩ => ⟨S800000x1, .i32⟩
  | .hbm, ⟨90, _⟩ => ⟨S50000x48, .f32⟩
  | .hbm, ⟨91, _⟩ => ⟨S50000x48, .f32⟩
  | .hbm, ⟨92, _⟩ => ⟨S50000x48, .f32⟩
  | .hbm, ⟨93, _⟩ => ⟨S50000x48, .f32⟩
  | .hbm, ⟨94, _⟩ => ⟨S50000x48, .f32⟩
  | .hbm, ⟨95, _⟩ => ⟨S50000x48, .f32⟩
  | .hbm, ⟨96, _⟩ => ⟨S1x48, .f32⟩
  | .hbm, ⟨97, _⟩ => ⟨S50000x48, .f32⟩
  | .hbm, ⟨98, _⟩ => ⟨S50000x48, .f32⟩
  | .hbm, ⟨99, _⟩ => ⟨S_, .f32⟩
  | .hbm, ⟨100, _⟩ => ⟨S50000x48, .f32⟩
  | .hbm, ⟨101, _⟩ => ⟨S50000x48, .f32⟩
  | .hbm, ⟨102, _⟩ => ⟨S50000x1, .f32⟩
  | .hbm, ⟨103, _⟩ => ⟨S1x1, .f32⟩
  | .hbm, ⟨104, _⟩ => ⟨S50000x1, .f32⟩
  | .hbm, ⟨105, _⟩ => ⟨S50000x1, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_c_8 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_cst : Ref sig .tc := ⟨.hbm, 99, rfl⟩
abbrev main_call2_v0 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  bcast_S_S50000x48 : S_.BroadcastsInDim S50000x48 (![] : Fin 0 → Fin S50000x48.rank)
  bcast_S50000x1_S50000x48_0_1 : S50000x1.BroadcastsInDim S50000x48 (![0, 1] : Fin 2 → Fin S50000x48.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x48_S50000x48_1_0_0_1_n_n_wf : DotDims.WF S50000x96 S96x48 S50000x48 [1] [0] [0] [1] [] []
  gather_S50000x48_S800000x1_S800000x48_1_0_n_n_0_1_148_wf : GatherDims.WF S50000x48 S800000x1 S800000x48 [1] [0] [] [0] [] 1 ![1, 48]
  scatter_S50000x48_S800000x1_S800000x48_1_0_0_1_wf : ScatterDims.WF S50000x48 S800000x1 S800000x48 [1] [0] [0] 1
  dot_S50000x48_S48x48_S50000x48_1_0_0_1_n_n_wf : DotDims.WF S50000x48 S48x48 S50000x48 [1] [0] [0] [1] [] []
  dot_S50000x48_S48x1_S50000x1_1_0_0_1_n_n_wf : DotDims.WF S50000x48 S48x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x48_S50000x48_1_0_0_1_n_n : DotDims S50000x96 S96x48 S50000x48 where
  lhsContracting := [1]
  rhsContracting := [0]
  lhsNonContracting := [0]
  rhsNonContracting := [1]
  lhsBatch := []
  rhsBatch := []
  wf := dot_S50000x96_S96x48_S50000x48_1_0_0_1_n_n_wf
def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def scatter_S50000x48_S800000x1_S800000x48_1_0_0_1 : ScatterDims S50000x48 S800000x1 S800000x48 where
  updateWindowDims := [1]
  insertedWindowDims := [0]
  scatterDimsToOperandDims := [0]
  indexVectorDim := 1
  wf := scatter_S50000x48_S800000x1_S800000x48_1_0_0_1_wf
def dot_S50000x48_S48x48_S50000x48_1_0_0_1_n_n : DotDims S50000x48 S48x48 S50000x48 where
  lhsContracting := [1]
  rhsContracting := [0]
  lhsNonContracting := [0]
  rhsNonContracting := [1]
  lhsBatch := []
  rhsBatch := []
  wf := dot_S50000x48_S48x48_S50000x48_1_0_0_1_n_n_wf
def dot_S50000x48_S48x1_S50000x1_1_0_0_1_n_n : DotDims S50000x48 S48x1 S50000x1 where
  lhsContracting := [1]
  rhsContracting := [0]
  lhsNonContracting := [0]
  rhsNonContracting := [1]
  lhsBatch := []
  rhsBatch := []
  wf := dot_S50000x48_S48x1_S50000x1_1_0_0_1_n_n_wf

class Facts : Prop extends Facts₀ where

variable [Facts]
-- ==== Proof.KernelRun.lean ====
/-
  The idealized kernel's run with its result named.

  The program is four pipelined kernel launches among three stretches of host operations. Its run is a fold of the
  device's buffer contents through these seven segments: after a host stretch every buffer holds what the stretch's
  operations leave there, after a launch each of the launch's arrays holds what its write-backs leave and every other
  buffer what it held. Every weakly fair execution terminates, without a fault, with each unscoped buffer at the
  fold's last contents: so the result buffer ends at the fold's value there, and every argument, which nothing writes,
  as launched. What that value is, layer by layer, is read off the fold in the modules that import this one.
-/
import proofs.«125428_j80556406604176_1_alg».proof.Proof.KernelIdealFrameP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- From any memory with zero counters every weakly fair execution of the program terminates, nothing faulting, with the
    result buffer at the last contents of the fold through the seven segments and the thirteen arguments as launched. -/
theorem run_result : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v52 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.Hand

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«125428_j80556406604176_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«125428_j80556406604176_1_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.LibSageRows.lean ====
/-
  A graph layer with mean aggregation, applied to a block of rows, against the same layer applied to the whole array,
  on the extended reals.

  Let `X` be the `M×K` array of node features, `Ag` the `M×K` array of aggregated neighbour features, `Ws` and `Wn`
  two `K×N` weights and `b` a bias vector of length `N`. The layer is `max (X · Ws + Ag · Wn + b, 0)`. A kernel that
  tiles the rows computes it on a `B×K` block `x` of `X` and the matching block `ag` of `Ag`: two products on the
  vector unit from zero accumulators, the bias laid out as one row `[1, N]` and broadcast over the block's rows, the
  rectifier against a splat scalar zero. The host computes the two whole products, adds the bias put on by two
  `broadcast_in_dim` and takes the maximum with a broadcast rank-0 zero. If row `p` of each block is row `P` of its
  array, entry `(p, q)` of the first is entry `(P, q)` of the second: both are
  `max (∑ k, X (P, k) * Ws (k, q) + ∑ k, Ag (P, k) * Wn (k, q) + b q, 0)`, the same sums term by term, so no finiteness
  is asked of any entry and the operands' float formats do not matter.
-/
import proofs.«125428_j80556406604176_1_alg».proof.Proof.LibAffineRows

noncomputable section

namespace Cert.Lib.SageRows

open Idealize.ShloMosaic Idealize.ShloMosaic.ValueIdx

/-- The layer on a block of rows is, row for row, the layer on the whole array. -/
theorem sage_row {M K N B : ℕ} {ψ₁ ψ₂ ψ₃ ψ₄ : FTy} (prec prec' : Option ContractPrecision)
    (X Ag : FVec Ideal ⟨2, ![M, K]⟩ .f32) (Ws Wn : FVec Ideal ⟨2, ![K, N]⟩ .f32) (bias : FVec Ideal ⟨1, ![N]⟩ .f32)
    (x : FVec Ideal ⟨2, ![B, K]⟩ ψ₁) (ag : FVec Ideal ⟨2, ![B, K]⟩ ψ₂)
    (ws : FVec Ideal ⟨2, ![K, N]⟩ ψ₃) (wn : FVec Ideal ⟨2, ![K, N]⟩ ψ₄) (bk : FVec Ideal ⟨1, ![N]⟩ .f32)
    (h1 : (⟨1, ![N]⟩ : Shape).ShapeCasts ⟨2, ![1, N]⟩) (h2 : (⟨2, ![1, N]⟩ : Shape).Broadcasts ⟨2, ![B, N]⟩)
    (g1 : (⟨1, ![N]⟩ : Shape).BroadcastsInDim ⟨2, ![1, N]⟩ ![1])
    (g2 : (⟨2, ![1, N]⟩ : Shape).BroadcastsInDim ⟨2, ![M, N]⟩ ![0, 1])
    (g0 : (⟨0, ![]⟩ : Shape).BroadcastsInDim ⟨2, ![M, N]⟩ ![])
    (P : Fin M) (p : Fin B) (q : Fin N)
    (hx : ∀ k : Fin K, (x (ix2 p k) : EReal) = X (ix2 P k)) (hag : ∀ k : Fin K, (ag (ix2 p k) : EReal) = Ag (ix2 P k))
    (hws : ∀ k : Fin K, (ws (ix2 k q) : EReal) = Ws (ix2 k q)) (hwn : ∀ k : Fin K, (wn (ix2 k q) : EReal) = Wn (ix2 k q))
    (hb : (bk (ix1 q) : EReal) = bias (ix1 q)) :
    maximumf (addf (addf (matmul (DotDims.plain B K N) prec x ws (constant ⟨2, ![B, N]⟩ .f32 0x00000000#32))
            (matmul (DotDims.plain B K N) prec ag wn (constant ⟨2, ![B, N]⟩ .f32 0x00000000#32)))
          (broadcastTo ⟨2, ![B, N]⟩ (shapeCast ⟨2, ![1, N]⟩ bk h1) h2))
        (broadcast ⟨2, ![B, N]⟩ (Scalar.ofBits .f32 0x00000000#32)) (ix2 p q)
      = maximumf (addf (addf (Host.dotGeneral (DotDims.plain M K N) prec' X Ws)
            (Host.dotGeneral (DotDims.plain M K N) prec' Ag Wn))
          (broadcastInDim ⟨2, ![M, N]⟩ ![0, 1] g2 (broadcastInDim ⟨2, ![1, N]⟩ ![1] g1 bias)))
        (broadcastInDim ⟨2, ![M, N]⟩ ![] g0 (constant ⟨0, ![]⟩ .f32 0x00000000#32)) (ix2 P q) := by
  refine Cert.Lib.AffineRows.relu_row _ _ _ _ g0 ?_
  show FloatOps.addf (FloatOps.addf _ _) _ = FloatOps.addf (FloatOps.addf _ _) _
  rw [Cert.Lib.AffineRows.castRow_apply bk h1 h2 p q, Cert.Lib.AffineRows.inDimRow_apply bias g1 g2 P q, hb]
  exact congrArg (FloatOps.addf · _) (congrArg₂ FloatOps.addf
    (Cert.Lib.RowBlock.matmul_eq_dotGeneral prec prec' .single X Ws x ws P p q hx hws)
    (Cert.Lib.RowBlock.matmul_eq_dotGeneral prec prec' .single Ag Wn ag wn P p q hag hwn))

end Cert.Lib.SageRows

end
-- ==== Proof.Spec.lean ====
/-
  What both programs compute, as whole-array functions on the extended reals.

  The network is three graph layers with mean aggregation followed by a linear head. With `src` and `dst` the two rows
  of the edge list, `deg i` the number of edges into node `i` and `dinv i = 1 / max (deg i, 1)`, one layer maps node
  features `h` to `max (h · Ws + agg · Wn + b, 0)` where `agg i = dinv i * ∑ over edges e with dst e = i of h (src e)`
  (a row gather at the wrapped source indices, a scatter-add into zeros at the destination indices, a product with
  the broadcast column `dinv`). The head maps `h` to `h · w + b`.

  Both programs run the aggregation as the same host operations; the reference also runs the dense part on the host,
  as whole products; the kernel runs it on row blocks. The functions here are spelt exactly as the host spells them, so
  the reference's result is `net` of the arguments by unfolding, and the kernel's is `net` layer by layer.
-/
import proofs.«125428_j80556406604176_1_alg».proof.ReferenceIdeal
import Idealize.ShloMosaic.PureOps.Ideal

noncomputable section

namespace Cert.Sage

open Idealize.ShloMosaic Cert.ReferenceIdeal Cert.ReferenceIdeal.Facts₀

-- the shape records and the layout witnesses are the reference program's own: they cite its stated side conditions
variable [Cert.ReferenceIdeal.Facts₀]

/-- Float and integer arrays of a shape, on the extended reals. -/
abbrev FA (s : Shape) : Type := FVec Ideal s .f32
abbrev IA (s : Shape) : Type := IVec s 32

/-- Row 0 of the edge list: each edge's source node. -/
def srcOf (e : IA S2x800000) : IA S800000 :=
  shapeCast _ (extractStridedSlice S1x800000 ![0, 0] e slices_S2x800000_S1x800000_0_0) shapeCasts_S1x800000_S800000

/-- Row 1 of the edge list: each edge's destination node. -/
def dstOf (e : IA S2x800000) : IA S800000 :=
  shapeCast _ (extractStridedSlice S1x800000 ![1, 0] e slices_S2x800000_S1x800000_1_0) shapeCasts_S1x800000_S800000

/-- The column `1 / max (deg, 1)`, `deg` the in-degree counted by a scatter-add of ones at the destinations. -/
def degInv (dst : IA S800000) : FA S50000x1 :=
  broadcastInDim S50000x1 ![0] bcast_S50000_S50000x1_0 (Host.divf (F := Ideal) (broadcastInDim S50000 ![] bcast_S_S50000 (constant (F := Ideal) S_ .f32 0x3F800000#32)) (maximumf (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 dst) (broadcastInDim S800000 ![] bcast_S_S800000 (constant (F := Ideal) S_ .f32 0x3F800000#32))) (broadcastInDim S50000 ![] bcast_S_S50000 (constant (F := Ideal) S_ .f32 0x3F800000#32))))

/-- The source indices as a gather's index column, a negative index wrapped by the number of nodes. -/
def srcCol (src : IA S800000) : IA S800000x1 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- Mean aggregation of 96-wide features. -/
def agg96 (x : FA S50000x96) (src dst : IA S800000) (dinv : FA S50000x1) : FA S50000x96 :=
  mulf (Host.scatterAdd (F := Ideal) scatter_S50000x96_S800000x1_S800000x96_1_0_0_1 (broadcastInDim S50000x96 ![] bcast_S_S50000x96 (constant (F := Ideal) S_ .f32 0x00000000#32)) (broadcastInDim S800000x1 ![0] bcast_S800000_S800000x1_0 dst) (Host.gather gather_S50000x96_S800000x1_S800000x96_1_0_n_n_0_1_196 x (srcCol src))) (broadcastInDim S50000x96 ![0, 1] bcast_S50000x1_S50000x96_0_1 dinv)

/-- Mean aggregation of 48-wide features. -/
def agg48 (h : FA S50000x48) (src dst : IA S800000) (dinv : FA S50000x1) : FA S50000x48 :=
  mulf (Host.scatterAdd (F := Ideal) scatter_S50000x48_S800000x1_S800000x48_1_0_0_1 (broadcastInDim S50000x48 ![] bcast_S_S50000x48 (constant (F := Ideal) S_ .f32 0x00000000#32)) (broadcastInDim S800000x1 ![0] bcast_S800000_S800000x1_0 dst) (Host.gather gather_S50000x48_S800000x1_S800000x48_1_0_n_n_0_1_148 h (srcCol src))) (broadcastInDim S50000x48 ![0, 1] bcast_S50000x1_S50000x48_0_1 dinv)

/-- The dense part of the first layer: `max (x · Ws + ag · Wn + b, 0)`, 96 features in, 48 out. -/
def layer96 (x ag : FA S50000x96) (ws wn : FA S96x48) (b : FA S48) : FA S50000x48 :=
  maximumf (addf (addf (Host.dotGeneral (F := Ideal) dot_S50000x96_S96x48_S50000x48_1_0_0_1_n_n none x ws) (Host.dotGeneral (F := Ideal) dot_S50000x96_S96x48_S50000x48_1_0_0_1_n_n none ag wn)) (broadcastInDim S50000x48 ![0, 1] bcast_S1x48_S50000x48_0_1 (broadcastInDim S1x48 ![1] bcast_S48_S1x48_1 b))) (broadcastInDim S50000x48 ![] bcast_S_S50000x48 (constant (F := Ideal) S_ .f32 0x00000000#32))

/-- The dense part of a later layer: 48 features in, 48 out. -/
def layer48 (h ag : FA S50000x48) (ws wn : FA S48x48) (b : FA S48) : FA S50000x48 :=
  maximumf (addf (addf (Host.dotGeneral (F := Ideal) dot_S50000x48_S48x48_S50000x48_1_0_0_1_n_n none h ws) (Host.dotGeneral (F := Ideal) dot_S50000x48_S48x48_S50000x48_1_0_0_1_n_n none ag wn)) (broadcastInDim S50000x48 ![0, 1] bcast_S1x48_S50000x48_0_1 (broadcastInDim S1x48 ![1] bcast_S48_S1x48_1 b))) (broadcastInDim S50000x48 ![] bcast_S_S50000x48 (constant (F := Ideal) S_ .f32 0x00000000#32))

/-- The linear head: `h · w + b`, one output per node. -/
def head (h : FA S50000x48) (w : FA S48x1) (b : FA S1) : FA S50000x1 :=
  addf (Host.dotGeneral (F := Ideal) dot_S50000x48_S48x1_S50000x1_1_0_0_1_n_n none h w) (broadcastInDim S50000x1 ![0, 1] bcast_S1x1_S50000x1_0_1 (broadcastInDim S1x1 ![1] bcast_S1_S1x1_1 b))

/-- The three layers' outputs, each from the one before, for given edge data. -/
def h1 (x : FA S50000x96) (src dst : IA S800000) (dinv : FA S50000x1) (ws0 wn0 : FA S96x48) (b0 : FA S48) : FA S50000x48 :=
  layer96 x (agg96 x src dst dinv) ws0 wn0 b0
def hNext (h : FA S50000x48) (src dst : IA S800000) (dinv : FA S50000x1) (ws wn : FA S48x48) (b : FA S48) : FA S50000x48 :=
  layer48 h (agg48 h src dst dinv) ws wn b

/-- The whole network as one function of the thirteen arguments. -/
def net (x : FA S50000x96) (e : IA S2x800000) (ws0 wn0 : FA S96x48) (b0 : FA S48) (ws1 wn1 : FA S48x48) (b1 : FA S48)
    (ws2 wn2 : FA S48x48) (b2 : FA S48) (wp : FA S48x1) (bp : FA S1) : FA S50000x1 :=
  head (hNext (hNext (h1 x (srcOf e) (dstOf e) (degInv (dstOf e)) ws0 wn0 b0) (srcOf e) (dstOf e) (degInv (dstOf e)) ws1 wn1 b1)
    (srcOf e) (dstOf e) (degInv (dstOf e)) ws2 wn2 b2) wp bp

end Cert.Sage

end
-- ==== Proof.Rows.lean ====
/-
  Each kernel body's stored value at one entry of its row block, against the whole-array layer at the matching entry.

  A layer kernel's body stores `max (x · ws + ag · wn + b, 0)` of its blocks: `x` and `ag` are 5000 rows of the node
  features and of the aggregated features, `ws`, `wn` and `b` are the whole weights and bias (the operands go through a
  change of float format first, which is the identity on the extended reals, and some through a cast to their own
  shape). If row `p` of each row block is row `P` of its array, entry `(p, q)` of the stored value is entry `(P, q)`
  of the layer on the whole arrays: the same two sums over the feature index, the same bias entry, the same maximum
  with zero. The head kernel's body stores `h · w + b` of its blocks, and the same holds of it.
-/
import proofs.«125428_j80556406604176_1_alg».proof.Proof.Gen.KernelIdeal.Skeleton
import proofs.«125428_j80556406604176_1_alg».proof.Proof.Gen.ReferenceIdeal
import proofs.«125428_j80556406604176_1_alg».proof.Proof.LibSageRows
import proofs.«125428_j80556406604176_1_alg».proof.Proof.Spec
import Idealize.ShloMosaic.Lib.Pipeline.Value

noncomputable section

namespace Cert.Sage

open Idealize.ShloMosaic Idealize.ShloMosaic.ValueIdx

/-- The first layer's stored value at `(p, q)` is the whole-array layer at `(P, q)`. -/
theorem point0 (x0 x1 : Vec Ideal Cert.KernelIdeal.S5000x96 .f32) (x2 x3 : Vec Ideal Cert.KernelIdeal.S96x48 .f32)
    (x4 : Vec Ideal Cert.KernelIdeal.S48 .f32) (X Ag : FA Cert.ReferenceIdeal.S50000x96) (Ws Wn : FA Cert.ReferenceIdeal.S96x48)
    (b : FA Cert.ReferenceIdeal.S48) (P : Fin 50000) (p : Fin 5000) (q : Fin 48)
    (hx : ∀ k : Fin 96, (x0 (ix2 p k) : EReal) = X (ix2 P k)) (hag : ∀ k : Fin 96, (x1 (ix2 p k) : EReal) = Ag (ix2 P k))
    (hws : ∀ k : Fin 96, (x2 (ix2 k q) : EReal) = Ws (ix2 k q)) (hwn : ∀ k : Fin 96, (x3 (ix2 k q) : EReal) = Wn (ix2 k q))
    (hb : (x4 (ix1 q) : EReal) = b (ix1 q)) :
    Cert.KernelIdeal.Gen.k0_pay1 (F := Ideal) x0 x1 x2 x3 x4 (ix2 p q) = layer96 X Ag Ws Wn b (ix2 P q) := by
  unfold Cert.KernelIdeal.Gen.k0_pay1 layer96
  exact Cert.Lib.SageRows.sage_row none none X Ag Ws Wn b _ _ _ _ x4 _ _ _ _ _ P p q hx
    (fun k => (congrFun (shapeCast_self x1 _) (ix2 p k)).trans (hag k)) hws hwn hb

/-- A later layer's stored value at `(p, q)` is the whole-array layer at `(P, q)` (the second layer's body). -/
theorem point1 (x0 x1 : Vec Ideal Cert.KernelIdeal.S5000x48 .f32) (x2 x3 : Vec Ideal Cert.KernelIdeal.S48x48 .f32)
    (x4 : Vec Ideal Cert.KernelIdeal.S48 .f32) (X Ag : FA Cert.ReferenceIdeal.S50000x48) (Ws Wn : FA Cert.ReferenceIdeal.S48x48)
    (b : FA Cert.ReferenceIdeal.S48) (P : Fin 50000) (p : Fin 5000) (q : Fin 48)
    (hx : ∀ k : Fin 48, (x0 (ix2 p k) : EReal) = X (ix2 P k)) (hag : ∀ k : Fin 48, (x1 (ix2 p k) : EReal) = Ag (ix2 P k))
    (hws : ∀ k : Fin 48, (x2 (ix2 k q) : EReal) = Ws (ix2 k q)) (hwn : ∀ k : Fin 48, (x3 (ix2 k q) : EReal) = Wn (ix2 k q))
    (hb : (x4 (ix1 q) : EReal) = b (ix1 q)) :
    Cert.KernelIdeal.Gen.k1_pay1 (F := Ideal) x0 x1 x2 x3 x4 (ix2 p q) = layer48 X Ag Ws Wn b (ix2 P q) := by
  unfold Cert.KernelIdeal.Gen.k1_pay1 layer48
  exact Cert.Lib.SageRows.sage_row none none X Ag Ws Wn b _ _ _ _ x4 _ _ _ _ _ P p q
    (fun k => (congrFun (shapeCast_self x0 _) (ix2 p k)).trans (hx k))
    (fun k => (congrFun (shapeCast_self x1 _) (ix2 p k)).trans (hag k)) hws hwn hb

/-- The same for the third layer's body. -/
theorem point2 (x0 x1 : Vec Ideal Cert.KernelIdeal.S5000x48 .f32) (x2 x3 : Vec Ideal Cert.KernelIdeal.S48x48 .f32)
    (x4 : Vec Ideal Cert.KernelIdeal.S48 .f32) (X Ag : FA Cert.ReferenceIdeal.S50000x48) (Ws Wn : FA Cert.ReferenceIdeal.S48x48)
    (b : FA Cert.ReferenceIdeal.S48) (P : Fin 50000) (p : Fin 5000) (q : Fin 48)
    (hx : ∀ k : Fin 48, (x0 (ix2 p k) : EReal) = X (ix2 P k)) (hag : ∀ k : Fin 48, (x1 (ix2 p k) : EReal) = Ag (ix2 P k))
    (hws : ∀ k : Fin 48, (x2 (ix2 k q) : EReal) = Ws (ix2 k q)) (hwn : ∀ k : Fin 48, (x3 (ix2 k q) : EReal) = Wn (ix2 k q))
    (hb : (x4 (ix1 q) : EReal) = b (ix1 q)) :
    Cert.KernelIdeal.Gen.k2_pay1 (F := Ideal) x0 x1 x2 x3 x4 (ix2 p q) = layer48 X Ag Ws Wn b (ix2 P q) := by
  unfold Cert.KernelIdeal.Gen.k2_pay1 layer48
  exact Cert.Lib.SageRows.sage_row none none X Ag Ws Wn b _ _ _ _ x4 _ _ _ _ _ P p q
    (fun k => (congrFun (shapeCast_self x0 _) (ix2 p k)).trans (hx k))
    (fun k => (congrFun (shapeCast_self x1 _) (ix2 p k)).trans (hag k)) hws hwn hb

/-- The head's stored value at `(p, q)` is the whole-array head at `(P, q)`. -/
theorem point3 (x0 : Vec Ideal Cert.KernelIdeal.S5000x48 .f32) (x1 : Vec Ideal Cert.KernelIdeal.S48x1 .f32)
    (x2 : Vec Ideal Cert.KernelIdeal.S1 .f32) (H : FA Cert.ReferenceIdeal.S50000x48) (W : FA Cert.ReferenceIdeal.S48x1)
    (b : FA Cert.ReferenceIdeal.S1) (P : Fin 50000) (p : Fin 5000) (q : Fin 1)
    (hx : ∀ k : Fin 48, (x0 (ix2 p k) : EReal) = H (ix2 P k)) (hw : ∀ k : Fin 48, (x1 (ix2 k q) : EReal) = W (ix2 k q))
    (hb : (x2 (ix1 q) : EReal) = b (ix1 q)) :
    Cert.KernelIdeal.Gen.k3_pay1 (F := Ideal) x0 x1 x2 (ix2 p q) = head H W b (ix2 P q) := by
  unfold Cert.KernelIdeal.Gen.k3_pay1 head
  refine Cert.Lib.AffineRows.layer_row none none H W _ _ _ _ P p q
    (fun k => (congrFun (shapeCast_self x0 _) (ix2 p k)).trans (hx k)) hw ?_
  rw [Cert.Lib.AffineRows.castRow_apply x2 _ _ p q, Cert.Lib.AffineRows.inDimRow_apply b _ _ P q, hb]

end Cert.Sage

end
-- ==== Proof.Block0.lean ====
/-
  Launch 0 of the kernel (the first graph layer): the array it leaves is the whole-array layer of the arrays it finds.

  The launch's grid has ten points; point `t` reads rows `5000·t … 5000·t + 4999` of the node features and of the
  aggregated features, the whole weights and the whole bias, and writes back rows `5000·t … 5000·t + 4999` of the
  output. Read at an entry, what a point writes back is the layer on the whole arrays at that entry (the row lemma), so
  every write-back is its block of ONE whole-array function; the ten blocks cover the output, so the output array ends
  holding that function, whatever the contents `V` the launch is entered with.
-/
import proofs.«125428_j80556406604176_1_alg».proof.Proof.KernelIdealFrameP
import proofs.«125428_j80556406604176_1_alg».proof.Proof.Rows
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem zero2_0 : (![0, 0] : Fin 2 → Nat) = fun _ => 0 := funext fun a => by fin_cases a <;> rfl
theorem zero1_0 : (![0] : Fin 1 → Nat) = fun _ => 0 := funext fun a => by fin_cases a <;> rfl

/-- The printed index maps, decided over the grid: the two row windows and the output window sit at block `t` of the
    rows, the weights and the bias at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the feature block at point `t` is row `5000·t + p` of the feature array. -/
theorem blk0_0 (c : Dev nD) (t : Fin cfg0.N) (p : Fin 5000) (k : Fin 96) (P : Fin 50000) (hP : P.val = t.val * 5000 + p.val) :
    (iblk0 V c 0 t : Vec Ideal S5000x96 .f32) (ix2 p k) = (V c main_arg0 : S50000x96.Idx → EReal) (ix2 P k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * p.val = P.val; rw [e0, hP]; omega
  | ⟨1, _⟩ => show win0_0.index t 1 * 96 + 1 * k.val = k.val; rw [e1]; omega

/-- Row `p` of the aggregated block at point `t` is row `5000·t + p` of the aggregated array. -/
theorem blk0_1 (c : Dev nD) (t : Fin cfg0.N) (p : Fin 5000) (k : Fin 96) (P : Fin 50000) (hP : P.val = t.val * 5000 + p.val) :
    (iblk0 V c 1 t : Vec Ideal S5000x96 .f32) (ix2 p k) = (V c main_v24 : S50000x96.Idx → EReal) (ix2 P k) := by
  obtain ⟨-, -, e0, e1, -⟩ := idx0 t
  unfold iblk0
  rw [View.read_apply]
  show V c main_v24 _ = V c main_v24 _
  congr 1
  funext a
  apply Fin.ext
  match a with
  | ⟨0, _⟩ => show win0_1.index t 0 * 5000 + 1 * p.val = P.val; rw [e0, hP]; omega
  | ⟨1, _⟩ => show win0_1.index t 1 * 96 + 1 * k.val = k.val; rw [e1]; omega

/-- The first weight's block is the whole weight. -/
theorem blk0_2 (c : Dev nD) (t : Fin cfg0.N) (k : Fin 96) (q : Fin 48) :
    (iblk0 V c 2 t : Vec Ideal S96x48 .f32) (ix2 k q) = (V c main_arg2 : S96x48.Idx → EReal) (ix2 k q) := by
  obtain ⟨-, -, -, -, e0, e1, -⟩ := idx0 t
  unfold iblk0
  rw [View.read_apply]
  show V c main_arg2 _ = V c main_arg2 _
  congr 1
  funext a
  apply Fin.ext
  match a with
  | ⟨0, _⟩ => show win0_2.index t 0 * 96 + 1 * k.val = k.val; rw [e0]; omega
  | ⟨1, _⟩ => show win0_2.index t 1 * 48 + 1 * q.val = q.val; rw [e1]; omega

/-- The second weight's block is the whole weight. -/
theorem blk0_3 (c : Dev nD) (t : Fin cfg0.N) (k : Fin 96) (q : Fin 48) :
    (iblk0 V c 3 t : Vec Ideal S96x48 .f32) (ix2 k q) = (V c main_arg3 : S96x48.Idx → EReal) (ix2 k q) := by
  obtain ⟨-, -, -, -, -, -, e0, e1, -⟩ := idx0 t
  unfold iblk0
  rw [View.read_apply]
  show V c main_arg3 _ = V c main_arg3 _
  congr 1
  funext a
  apply Fin.ext
  match a with
  | ⟨0, _⟩ => show win0_3.index t 0 * 96 + 1 * k.val = k.val; rw [e0]; omega
  | ⟨1, _⟩ => show win0_3.index t 1 * 48 + 1 * q.val = q.val; rw [e1]; omega

/-- The bias's block is the whole bias. -/
theorem blk0_4 (c : Dev nD) (t : Fin cfg0.N) (q : Fin 48) :
    (iblk0 V c 4 t : Vec Ideal S48 .f32) (ix1 q) = (V c main_arg4 : S48.Idx → EReal) (ix1 q) := by
  obtain ⟨-, -, -, -, -, -, -, -, e0, -⟩ := idx0 t
  unfold iblk0
  rw [View.read_apply]
  show V c main_arg4 _ = V c main_arg4 _
  congr 1
  funext a
  apply Fin.ext
  match a with
  | ⟨0, _⟩ => show win0_4.index t 0 * 48 + 1 * q.val = q.val; rw [e0]; omega

/-- What point `t` writes back is block `t` of the layer on the whole arrays the launch finds. -/
theorem flushed0 (c : Dev nD) (t : Fin cfg0.N) :
    (dat0 V c).flushed 5 t = ((cfg0.win 5).blk t).view.read (Elt Ideal)
      (Cert.Sage.layer96 (V c main_arg0) (V c main_v24) (V c main_arg2) (V c main_arg3) (V c main_arg4)) := by
  show (cfg0.win 5).cut (grid0.coords t) ((dat0 V c).after 5 t) = _
  rw [after0_5]
  unfold out0_5
  rw [View.canon_unit_zero zero2_0]
  simp only [View.ld_unit_zero (S := S5000x96) zero2_0, View.ld_unit_zero (S := S96x48) zero2_0, View.ld_unit_zero (S := S48) zero1_0]
  funext y
  obtain ⟨p, q, rfl⟩ : ∃ (p : Fin 5000) (q : Fin 48), y = ix2 p q := ⟨y 0, y 1, eq_ix2 y⟩
  have hN : cfg0.N = 10 := N_0
  have hP : t.val * 5000 + p.val < 50000 := by have := t.isLt; have := p.isLt; omega
  obtain ⟨-, -, -, -, -, -, -, -, -, e0, e1⟩ := idx0 t
  have hemb : ((cfg0.win 5).blk t).view.emb (ix2 p q) = ix2 (⟨t.val * 5000 + p.val, hP⟩ : Fin 50000) q := by
    funext a
    apply Fin.ext
    match a with
    | ⟨0, _⟩ => show win0_5.index t 0 * 5000 + 1 * p.val = t.val * 5000 + p.val; rw [e0]; omega
    | ⟨1, _⟩ => show win0_5.index t 1 * 48 + 1 * q.val = q.val; rw [e1]; omega
  rw [View.read_apply, hemb]
  exact Cert.Sage.point0 (iblk0 V c 0 t) (iblk0 V c 1 t) (iblk0 V c 2 t) (iblk0 V c 3 t) (iblk0 V c 4 t)
    (V c main_arg0) (V c main_v24) (V c main_arg2) (V c main_arg3) (V c main_arg4) ⟨t.val * 5000 + p.val, hP⟩ p q
    (fun k => blk0_0 V c t p k _ rfl) (fun k => blk0_1 V c t p k _ rfl) (fun k => blk0_2 V c t k q)
    (fun k => blk0_3 V c t k q) (blk0_4 V c t q)

/-- An index of the output is in point `t`'s block iff each coordinate is in the block's range on its axis. -/
theorem mem_blk0 (t : Fin cfg0.N) (i : S50000x48.Idx) :
    i ∈ ((cfg0.win 5).blk t).view.set ↔ ∀ a : Fin 2, win0_5.index t a * S5000x48.size a ≤ (i a).val ∧ (i a).val < win0_5.index t a * S5000x48.size a + S5000x48.size a := by
  show i ∈ ((View.whole main_v25).slice (win0_5.rect t)).set ↔ _
  rw [View.set_slice_whole, Rect.mem_set_unit]
  exact Iff.rfl

/-- Every index of the output is in the block of the point its row falls under. -/
theorem cover0 (i : S50000x48.Idx) : ∃ t : Fin cfg0.N, (cfg0.win 5).flush t = true ∧ i ∈ ((cfg0.win 5).blk t).view.set := by
  have hN : cfg0.N = 10 := N_0
  have hi0 : (i 0).val < 50000 := (i 0).isLt
  have hi1 : (i 1).val < 48 := (i 1).isLt
  refine ⟨⟨(i 0).val / 5000, by omega⟩, flush0_5 _, ?_⟩
  rw [mem_blk0]
  obtain ⟨-, -, -, -, -, -, -, -, -, e0, e1⟩ := idx0 ⟨(i 0).val / 5000, by omega⟩
  intro a
  match a with
  | ⟨0, _⟩ => show win0_5.index _ 0 * 5000 ≤ (i 0).val ∧ (i 0).val < win0_5.index _ 0 * 5000 + 5000; rw [e0]; show (i 0).val / 5000 * 5000 ≤ (i 0).val ∧ (i 0).val < (i 0).val / 5000 * 5000 + 5000; omega
  | ⟨1, _⟩ => show win0_5.index _ 1 * 48 ≤ (i 1).val ∧ (i 1).val < win0_5.index _ 1 * 48 + 48; rw [e1]; omega

/-- The output array after the launch is the layer on the whole arrays the launch finds. -/
theorem final0 (c : Dev nD) : (dat0 V c).arrAt 5 cfg0.N
    = Cert.Sage.layer96 (V c main_arg0) (V c main_v24) (V c main_arg2) (V c main_arg3) (V c main_arg4) :=
  (dat0 V c).arrAt_eq_of_cover 5 _ (fun t _ => flushed0 V c t) (cover0)

end Cert.KernelIdeal.Hand

end
-- ==== Proof.Block1.lean ====
/-
  Launch 1 of the kernel (the second graph layer): the array it leaves is the whole-array layer of the arrays it finds.

  The launch's grid has ten points; point `t` reads rows `5000·t … 5000·t + 4999` of the node features and of the
  aggregated features, the whole weights and the whole bias, and writes back rows `5000·t … 5000·t + 4999` of the
  output. Read at an entry, what a point writes back is the layer on the whole arrays at that entry (the row lemma), so
  every write-back is its block of ONE whole-array function; the ten blocks cover the output, so the output array ends
  holding that function, whatever the contents `V` the launch is entered with.
-/
import proofs.«125428_j80556406604176_1_alg».proof.Proof.KernelIdealFrameP
import proofs.«125428_j80556406604176_1_alg».proof.Proof.Rows
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a <;> rfl

/-- The printed index maps, decided over the grid: the two row windows and the output window sit at block `t` of the
    rows, the weights and the bias at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the feature block at point `t` is row `5000·t + p` of the feature array. -/
theorem blk1_0 (c : Dev nD) (t : Fin cfg1.N) (p : Fin 5000) (k : Fin 48) (P : Fin 50000) (hP : P.val = t.val * 5000 + p.val) :
    (iblk1 V c 0 t : Vec Ideal S5000x48 .f32) (ix2 p k) = (V c main_v25 : S50000x48.Idx → EReal) (ix2 P k) := by
  obtain ⟨e0, e1, -⟩ := idx1 t
  unfold iblk1
  rw [View.read_apply]
  show V c main_v25 _ = V c main_v25 _
  congr 1
  funext a
  apply Fin.ext
  match a with
  | ⟨0, _⟩ => show win1_0.index t 0 * 5000 + 1 * p.val = P.val; rw [e0, hP]; omega
  | ⟨1, _⟩ => show win1_0.index t 1 * 48 + 1 * k.val = k.val; rw [e1]; omega

/-- Row `p` of the aggregated block at point `t` is row `5000·t + p` of the aggregated array. -/
theorem blk1_1 (c : Dev nD) (t : Fin cfg1.N) (p : Fin 5000) (k : Fin 48) (P : Fin 50000) (hP : P.val = t.val * 5000 + p.val) :
    (iblk1 V c 1 t : Vec Ideal S5000x48 .f32) (ix2 p k) = (V c main_v37 : S50000x48.Idx → EReal) (ix2 P k) := by
  obtain ⟨-, -, e0, e1, -⟩ := idx1 t
  unfold iblk1
  rw [View.read_apply]
  show V c main_v37 _ = V c main_v37 _
  congr 1
  funext a
  apply Fin.ext
  match a with
  | ⟨0, _⟩ => show win1_1.index t 0 * 5000 + 1 * p.val = P.val; rw [e0, hP]; omega
  | ⟨1, _⟩ => show win1_1.index t 1 * 48 + 1 * k.val = k.val; rw [e1]; omega

/-- The first weight's block is the whole weight. -/
theorem blk1_2 (c : Dev nD) (t : Fin cfg1.N) (k : Fin 48) (q : Fin 48) :
    (iblk1 V c 2 t : Vec Ideal S48x48 .f32) (ix2 k q) = (V c main_arg5 : S48x48.Idx → EReal) (ix2 k q) := by
  obtain ⟨-, -, -, -, e0, e1, -⟩ := idx1 t
  unfold iblk1
  rw [View.read_apply]
  show V c main_arg5 _ = V c main_arg5 _
  congr 1
  funext a
  apply Fin.ext
  match a with
  | ⟨0, _⟩ => show win1_2.index t 0 * 48 + 1 * k.val = k.val; rw [e0]; omega
  | ⟨1, _⟩ => show win1_2.index t 1 * 48 + 1 * q.val = q.val; rw [e1]; omega

/-- The second weight's block is the whole weight. -/
theorem blk1_3 (c : Dev nD) (t : Fin cfg1.N) (k : Fin 48) (q : Fin 48) :
    (iblk1 V c 3 t : Vec Ideal S48x48 .f32) (ix2 k q) = (V c main_arg6 : S48x48.Idx → EReal) (ix2 k q) := by
  obtain ⟨-, -, -, -, -, -, e0, e1, -⟩ := idx1 t
  unfold iblk1
  rw [View.read_apply]
  show V c main_arg6 _ = V c main_arg6 _
  congr 1
  funext a
  apply Fin.ext
  match a with
  | ⟨0, _⟩ => show win1_3.index t 0 * 48 + 1 * k.val = k.val; rw [e0]; omega
  | ⟨1, _⟩ => show win1_3.index t 1 * 48 + 1 * q.val = q.val; rw [e1]; omega

/-- The bias's block is the whole bias. -/
theorem blk1_4 (c : Dev nD) (t : Fin cfg1.N) (q : Fin 48) :
    (iblk1 V c 4 t : Vec Ideal S48 .f32) (ix1 q) = (V c main_arg7 : S48.Idx → EReal) (ix1 q) := by
  obtain ⟨-, -, -, -, -, -, -, -, e0, -⟩ := idx1 t
  unfold iblk1
  rw [View.read_apply]
  show V c main_arg7 _ = V c main_arg7 _
  congr 1
  funext a
  apply Fin.ext
  match a with
  | ⟨0, _⟩ => show win1_4.index t 0 * 48 + 1 * q.val = q.val; rw [e0]; omega

/-- What point `t` writes back is block `t` of the layer on the whole arrays the launch finds. -/
theorem flushed1 (c : Dev nD) (t : Fin cfg1.N) :
    (dat1 V c).flushed 5 t = ((cfg1.win 5).blk t).view.read (Elt Ideal)
      (Cert.Sage.layer48 (V c main_v25) (V c main_v37) (V c main_arg5) (V c main_arg6) (V c main_arg7)) := by
  show (cfg1.win 5).cut (grid1.coords t) ((dat1 V c).after 5 t) = _
  rw [after1_5]
  unfold out1_5
  rw [View.canon_unit_zero zero2_1]
  simp only [View.ld_unit_zero (S := S5000x48) zero2_1, View.ld_unit_zero (S := S48x48) zero2_1, View.ld_unit_zero (S := S48) zero1_1]
  funext y
  obtain ⟨p, q, rfl⟩ : ∃ (p : Fin 5000) (q : Fin 48), y = ix2 p q := ⟨y 0, y 1, eq_ix2 y⟩
  have hN : cfg1.N = 10 := N_1
  have hP : t.val * 5000 + p.val < 50000 := by have := t.isLt; have := p.isLt; omega
  obtain ⟨-, -, -, -, -, -, -, -, -, e0, e1⟩ := idx1 t
  have hemb : ((cfg1.win 5).blk t).view.emb (ix2 p q) = ix2 (⟨t.val * 5000 + p.val, hP⟩ : Fin 50000) q := by
    funext a
    apply Fin.ext
    match a with
    | ⟨0, _⟩ => show win1_5.index t 0 * 5000 + 1 * p.val = t.val * 5000 + p.val; rw [e0]; omega
    | ⟨1, _⟩ => show win1_5.index t 1 * 48 + 1 * q.val = q.val; rw [e1]; omega
  rw [View.read_apply, hemb]
  exact Cert.Sage.point1 (iblk1 V c 0 t) (iblk1 V c 1 t) (iblk1 V c 2 t) (iblk1 V c 3 t) (iblk1 V c 4 t)
    (V c main_v25) (V c main_v37) (V c main_arg5) (V c main_arg6) (V c main_arg7) ⟨t.val * 5000 + p.val, hP⟩ p q
    (fun k => blk1_0 V c t p k _ rfl) (fun k => blk1_1 V c t p k _ rfl) (fun k => blk1_2 V c t k q)
    (fun k => blk1_3 V c t k q) (blk1_4 V c t q)

/-- An index of the output is in point `t`'s block iff each coordinate is in the block's range on its axis. -/
theorem mem_blk1 (t : Fin cfg1.N) (i : S50000x48.Idx) :
    i ∈ ((cfg1.win 5).blk t).view.set ↔ ∀ a : Fin 2, win1_5.index t a * S5000x48.size a ≤ (i a).val ∧ (i a).val < win1_5.index t a * S5000x48.size a + S5000x48.size a := by
  show i ∈ ((View.whole main_v38).slice (win1_5.rect t)).set ↔ _
  rw [View.set_slice_whole, Rect.mem_set_unit]
  exact Iff.rfl

/-- Every index of the output is in the block of the point its row falls under. -/
theorem cover1 (i : S50000x48.Idx) : ∃ t : Fin cfg1.N, (cfg1.win 5).flush t = true ∧ i ∈ ((cfg1.win 5).blk t).view.set := by
  have hN : cfg1.N = 10 := N_1
  have hi0 : (i 0).val < 50000 := (i 0).isLt
  have hi1 : (i 1).val < 48 := (i 1).isLt
  refine ⟨⟨(i 0).val / 5000, by omega⟩, flush1_5 _, ?_⟩
  rw [mem_blk1]
  obtain ⟨-, -, -, -, -, -, -, -, -, e0, e1⟩ := idx1 ⟨(i 0).val / 5000, by omega⟩
  intro a
  match a with
  | ⟨0, _⟩ => show win1_5.index _ 0 * 5000 ≤ (i 0).val ∧ (i 0).val < win1_5.index _ 0 * 5000 + 5000; rw [e0]; show (i 0).val / 5000 * 5000 ≤ (i 0).val ∧ (i 0).val < (i 0).val / 5000 * 5000 + 5000; omega
  | ⟨1, _⟩ => show win1_5.index _ 1 * 48 ≤ (i 1).val ∧ (i 1).val < win1_5.index _ 1 * 48 + 48; rw [e1]; omega

/-- The output array after the launch is the layer on the whole arrays the launch finds. -/
theorem final1 (c : Dev nD) : (dat1 V c).arrAt 5 cfg1.N
    = Cert.Sage.layer48 (V c main_v25) (V c main_v37) (V c main_arg5) (V c main_arg6) (V c main_arg7) :=
  (dat1 V c).arrAt_eq_of_cover 5 _ (fun t _ => flushed1 V c t) (cover1)

end Cert.KernelIdeal.Hand

end
-- ==== Proof.Block2.lean ====
/-
  Launch 2 of the kernel (the third graph layer): the array it leaves is the whole-array layer of the arrays it finds.

  The launch's grid has ten points; point `t` reads rows `5000·t … 5000·t + 4999` of the node features and of the
  aggregated features, the whole weights and the whole bias, and writes back rows `5000·t … 5000·t + 4999` of the
  output. Read at an entry, what a point writes back is the layer on the whole arrays at that entry (the row lemma), so
  every write-back is its block of ONE whole-array function; the ten blocks cover the output, so the output array ends
  holding that function, whatever the contents `V` the launch is entered with.
-/
import proofs.«125428_j80556406604176_1_alg».proof.Proof.KernelIdealFrameP
import proofs.«125428_j80556406604176_1_alg».proof.Proof.Rows
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem zero2_2 : (![0, 0] : Fin 2 → Nat) = fun _ => 0 := funext fun a => by fin_cases a <;> rfl
theorem zero1_2 : (![0] : Fin 1 → Nat) = fun _ => 0 := funext fun a => by fin_cases a <;> rfl

/-- The printed index maps, decided over the grid: the two row windows and the output window sit at block `t` of the
    rows, the weights and the bias at their one block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row `p` of the feature block at point `t` is row `5000·t + p` of the feature array. -/
theorem blk2_0 (c : Dev nD) (t : Fin cfg2.N) (p : Fin 5000) (k : Fin 48) (P : Fin 50000) (hP : P.val = t.val * 5000 + p.val) :
    (iblk2 V c 0 t : Vec Ideal S5000x48 .f32) (ix2 p k) = (V c main_v38 : S50000x48.Idx → EReal) (ix2 P k) := by
  obtain ⟨e0, e1, -⟩ := idx2 t
  unfold iblk2
  rw [View.read_apply]
  show V c main_v38 _ = V c main_v38 _
  congr 1
  funext a
  apply Fin.ext
  match a with
  | ⟨0, _⟩ => show win2_0.index t 0 * 5000 + 1 * p.val = P.val; rw [e0, hP]; omega
  | ⟨1, _⟩ => show win2_0.index t 1 * 48 + 1 * k.val = k.val; rw [e1]; omega

/-- Row `p` of the aggregated block at point `t` is row `5000·t + p` of the aggregated array. -/
theorem blk2_1 (c : Dev nD) (t : Fin cfg2.N) (p : Fin 5000) (k : Fin 48) (P : Fin 50000) (hP : P.val = t.val * 5000 + p.val) :
    (iblk2 V c 1 t : Vec Ideal S5000x48 .f32) (ix2 p k) = (V c main_v50 : S50000x48.Idx → EReal) (ix2 P k) := by
  obtain ⟨-, -, e0, e1, -⟩ := idx2 t
  unfold iblk2
  rw [View.read_apply]
  show V c main_v50 _ = V c main_v50 _
  congr 1
  funext a
  apply Fin.ext
  match a with
  | ⟨0, _⟩ => show win2_1.index t 0 * 5000 + 1 * p.val = P.val; rw [e0, hP]; omega
  | ⟨1, _⟩ => show win2_1.index t 1 * 48 + 1 * k.val = k.val; rw [e1]; omega

/-- The first weight's block is the whole weight. -/
theorem blk2_2 (c : Dev nD) (t : Fin cfg2.N) (k : Fin 48) (q : Fin 48) :
    (iblk2 V c 2 t : Vec Ideal S48x48 .f32) (ix2 k q) = (V c main_arg8 : S48x48.Idx → EReal) (ix2 k q) := by
  obtain ⟨-, -, -, -, e0, e1, -⟩ := idx2 t
  unfold iblk2
  rw [View.read_apply]
  show V c main_arg8 _ = V c main_arg8 _
  congr 1
  funext a
  apply Fin.ext
  match a with
  | ⟨0, _⟩ => show win2_2.index t 0 * 48 + 1 * k.val = k.val; rw [e0]; omega
  | ⟨1, _⟩ => show win2_2.index t 1 * 48 + 1 * q.val = q.val; rw [e1]; omega

/-- The second weight's block is the whole weight. -/
theorem blk2_3 (c : Dev nD) (t : Fin cfg2.N) (k : Fin 48) (q : Fin 48) :
    (iblk2 V c 3 t : Vec Ideal S48x48 .f32) (ix2 k q) = (V c main_arg9 : S48x48.Idx → EReal) (ix2 k q) := by
  obtain ⟨-, -, -, -, -, -, e0, e1, -⟩ := idx2 t
  unfold iblk2
  rw [View.read_apply]
  show V c main_arg9 _ = V c main_arg9 _
  congr 1
  funext a
  apply Fin.ext
  match a with
  | ⟨0, _⟩ => show win2_3.index t 0 * 48 + 1 * k.val = k.val; rw [e0]; omega
  | ⟨1, _⟩ => show win2_3.index t 1 * 48 + 1 * q.val = q.val; rw [e1]; omega

/-- The bias's block is the whole bias. -/
theorem blk2_4 (c : Dev nD) (t : Fin cfg2.N) (q : Fin 48) :
    (iblk2 V c 4 t : Vec Ideal S48 .f32) (ix1 q) = (V c main_arg10 : S48.Idx → EReal) (ix1 q) := by
  obtain ⟨-, -, -, -, -, -, -, -, e0, -⟩ := idx2 t
  unfold iblk2
  rw [View.read_apply]
  show V c main_arg10 _ = V c main_arg10 _
  congr 1
  funext a
  apply Fin.ext
  match a with
  | ⟨0, _⟩ => show win2_4.index t 0 * 48 + 1 * q.val = q.val; rw [e0]; omega

/-- What point `t` writes back is block `t` of the layer on the whole arrays the launch finds. -/
theorem flushed2 (c : Dev nD) (t : Fin cfg2.N) :
    (dat2 V c).flushed 5 t = ((cfg2.win 5).blk t).view.read (Elt Ideal)
      (Cert.Sage.layer48 (V c main_v38) (V c main_v50) (V c main_arg8) (V c main_arg9) (V c main_arg10)) := by
  show (cfg2.win 5).cut (grid2.coords t) ((dat2 V c).after 5 t) = _
  rw [after2_5]
  unfold out2_5
  rw [View.canon_unit_zero zero2_2]
  simp only [View.ld_unit_zero (S := S5000x48) zero2_2, View.ld_unit_zero (S := S48x48) zero2_2, View.ld_unit_zero (S := S48) zero1_2]
  funext y
  obtain ⟨p, q, rfl⟩ : ∃ (p : Fin 5000) (q : Fin 48), y = ix2 p q := ⟨y 0, y 1, eq_ix2 y⟩
  have hN : cfg2.N = 10 := N_2
  have hP : t.val * 5000 + p.val < 50000 := by have := t.isLt; have := p.isLt; omega
  obtain ⟨-, -, -, -, -, -, -, -, -, e0, e1⟩ := idx2 t
  have hemb : ((cfg2.win 5).blk t).view.emb (ix2 p q) = ix2 (⟨t.val * 5000 + p.val, hP⟩ : Fin 50000) q := by
    funext a
    apply Fin.ext
    match a with
    | ⟨0, _⟩ => show win2_5.index t 0 * 5000 + 1 * p.val = t.val * 5000 + p.val; rw [e0]; omega
    | ⟨1, _⟩ => show win2_5.index t 1 * 48 + 1 * q.val = q.val; rw [e1]; omega
  rw [View.read_apply, hemb]
  exact Cert.Sage.point2 (iblk2 V c 0 t) (iblk2 V c 1 t) (iblk2 V c 2 t) (iblk2 V c 3 t) (iblk2 V c 4 t)
    (V c main_v38) (V c main_v50) (V c main_arg8) (V c main_arg9) (V c main_arg10) ⟨t.val * 5000 + p.val, hP⟩ p q
    (fun k => blk2_0 V c t p k _ rfl) (fun k => blk2_1 V c t p k _ rfl) (fun k => blk2_2 V c t k q)
    (fun k => blk2_3 V c t k q) (blk2_4 V c t q)

/-- An index of the output is in point `t`'s block iff each coordinate is in the block's range on its axis. -/
theorem mem_blk2 (t : Fin cfg2.N) (i : S50000x48.Idx) :
    i ∈ ((cfg2.win 5).blk t).view.set ↔ ∀ a : Fin 2, win2_5.index t a * S5000x48.size a ≤ (i a).val ∧ (i a).val < win2_5.index t a * S5000x48.size a + S5000x48.size a := by
  show i ∈ ((View.whole main_v51).slice (win2_5.rect t)).set ↔ _
  rw [View.set_slice_whole, Rect.mem_set_unit]
  exact Iff.rfl

/-- Every index of the output is in the block of the point its row falls under. -/
theorem cover2 (i : S50000x48.Idx) : ∃ t : Fin cfg2.N, (cfg2.win 5).flush t = true ∧ i ∈ ((cfg2.win 5).blk t).view.set := by
  have hN : cfg2.N = 10 := N_2
  have hi0 : (i 0).val < 50000 := (i 0).isLt
  have hi1 : (i 1).val < 48 := (i 1).isLt
  refine ⟨⟨(i 0).val / 5000, by omega⟩, flush2_5 _, ?_⟩
  rw [mem_blk2]
  obtain ⟨-, -, -, -, -, -, -, -, -, e0, e1⟩ := idx2 ⟨(i 0).val / 5000, by omega⟩
  intro a
  match a with
  | ⟨0, _⟩ => show win2_5.index _ 0 * 5000 ≤ (i 0).val ∧ (i 0).val < win2_5.index _ 0 * 5000 + 5000; rw [e0]; show (i 0).val / 5000 * 5000 ≤ (i 0).val ∧ (i 0).val < (i 0).val / 5000 * 5000 + 5000; omega
  | ⟨1, _⟩ => show win2_5.index _ 1 * 48 ≤ (i 1).val ∧ (i 1).val < win2_5.index _ 1 * 48 + 48; rw [e1]; omega

/-- The output array after the launch is the layer on the whole arrays the launch finds. -/
theorem final2 (c : Dev nD) : (dat2 V c).arrAt 5 cfg2.N
    = Cert.Sage.layer48 (V c main_v38) (V c main_v50) (V c main_arg8) (V c main_arg9) (V c main_arg10) :=
  (dat2 V c).arrAt_eq_of_cover 5 _ (fun t _ => flushed2 V c t) (cover2)

end Cert.KernelIdeal.Hand

end
-- ==== Proof.Block3.lean ====
/-
  Launch 3 of the kernel (the linear head): the array it leaves is the whole-array head of the arrays it finds.

  The launch's grid has ten points; point `t` reads rows `5000·t … 5000·t + 4999` of the last layer's output, the
  whole weight column and the one-entry bias, and writes back rows `5000·t … 5000·t + 4999` of the result column. Read
  at an entry, what a point writes back is the head on the whole arrays at that entry (the row lemma), so every
  write-back is its block of ONE whole-array function; the ten blocks cover the result, so the result array ends holding
  that function, whatever the contents `V` the launch is entered with.
-/
import proofs.«125428_j80556406604176_1_alg».proof.Proof.KernelIdealFrameP
import proofs.«125428_j80556406604176_1_alg».proof.Proof.Rows
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem zero2_3 : (![0, 0] : Fin 2 → Nat) = fun _ => 0 := funext fun a => by fin_cases a <;> rfl
theorem zero1_3 : (![0] : Fin 1 → Nat) = fun _ => 0 := funext fun a => by fin_cases a <;> rfl

/-- The printed index maps, decided over the grid: the row window and the output window sit at block `t` of the rows,
    the weight and the bias at their one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Row `p` of the feature block at point `t` is row `5000·t + p` of the feature array. -/
theorem blk3_0 (c : Dev nD) (t : Fin cfg3.N) (p : Fin 5000) (k : Fin 48) (P : Fin 50000) (hP : P.val = t.val * 5000 + p.val) :
    (iblk3 V c 0 t : Vec Ideal S5000x48 .f32) (ix2 p k) = (V c main_v51 : S50000x48.Idx → EReal) (ix2 P k) := by
  obtain ⟨e0, e1, -⟩ := idx3 t
  unfold iblk3
  rw [View.read_apply]
  show V c main_v51 _ = V c main_v51 _
  congr 1
  funext a
  apply Fin.ext
  match a with
  | ⟨0, _⟩ => show win3_0.index t 0 * 5000 + 1 * p.val = P.val; rw [e0, hP]; omega
  | ⟨1, _⟩ => show win3_0.index t 1 * 48 + 1 * k.val = k.val; rw [e1]; omega

/-- The weight's block is the whole weight. -/
theorem blk3_1 (c : Dev nD) (t : Fin cfg3.N) (k : Fin 48) (q : Fin 1) :
    (iblk3 V c 1 t : Vec Ideal S48x1 .f32) (ix2 k q) = (V c main_arg11 : S48x1.Idx → EReal) (ix2 k q) := by
  obtain ⟨-, -, e0, e1, -⟩ := idx3 t
  unfold iblk3
  rw [View.read_apply]
  show V c main_arg11 _ = V c main_arg11 _
  congr 1
  funext a
  apply Fin.ext
  match a with
  | ⟨0, _⟩ => show win3_1.index t 0 * 48 + 1 * k.val = k.val; rw [e0]; omega
  | ⟨1, _⟩ => show win3_1.index t 1 * 1 + 1 * q.val = q.val; rw [e1]; omega

/-- The bias's block is the whole bias. -/
theorem blk3_2 (c : Dev nD) (t : Fin cfg3.N) (q : Fin 1) :
    (iblk3 V c 2 t : Vec Ideal S1 .f32) (ix1 q) = (V c main_arg12 : S1.Idx → EReal) (ix1 q) := by
  obtain ⟨-, -, -, -, e0, -⟩ := idx3 t
  unfold iblk3
  rw [View.read_apply]
  show V c main_arg12 _ = V c main_arg12 _
  congr 1
  funext a
  apply Fin.ext
  match a with
  | ⟨0, _⟩ => show win3_2.index t 0 * 1 + 1 * q.val = q.val; rw [e0]; omega

/-- What point `t` writes back is block `t` of the head on the whole arrays the launch finds. -/
theorem flushed3 (c : Dev nD) (t : Fin cfg3.N) :
    (dat3 V c).flushed 3 t = ((cfg3.win 3).blk t).view.read (Elt Ideal)
      (Cert.Sage.head (V c main_v51) (V c main_arg11) (V c main_arg12)) := by
  show (cfg3.win 3).cut (grid3.coords t) ((dat3 V c).after 3 t) = _
  rw [after3_3]
  unfold out3_3
  rw [View.canon_unit_zero zero2_3]
  simp only [View.ld_unit_zero (S := S5000x48) zero2_3, View.ld_unit_zero (S := S48x1) zero2_3, View.ld_unit_zero (S := S1) zero1_3]
  funext y
  obtain ⟨p, q, rfl⟩ : ∃ (p : Fin 5000) (q : Fin 1), y = ix2 p q := ⟨y 0, y 1, eq_ix2 y⟩
  have hN : cfg3.N = 10 := N_3
  have hP : t.val * 5000 + p.val < 50000 := by have := t.isLt; have := p.isLt; omega
  obtain ⟨-, -, -, -, -, e0, e1⟩ := idx3 t
  have hemb : ((cfg3.win 3).blk t).view.emb (ix2 p q) = ix2 (⟨t.val * 5000 + p.val, hP⟩ : Fin 50000) q := by
    funext a
    apply Fin.ext
    match a with
    | ⟨0, _⟩ => show win3_3.index t 0 * 5000 + 1 * p.val = t.val * 5000 + p.val; rw [e0]; omega
    | ⟨1, _⟩ => show win3_3.index t 1 * 1 + 1 * q.val = q.val; rw [e1]; omega
  rw [View.read_apply, hemb]
  exact Cert.Sage.point3 (iblk3 V c 0 t) (iblk3 V c 1 t) (iblk3 V c 2 t)
    (V c main_v51) (V c main_arg11) (V c main_arg12) ⟨t.val * 5000 + p.val, hP⟩ p q
    (fun k => blk3_0 V c t p k _ rfl) (fun k => blk3_1 V c t k q) (blk3_2 V c t q)

/-- An index of the result is in point `t`'s block iff each coordinate is in the block's range on its axis. -/
theorem mem_blk3 (t : Fin cfg3.N) (i : S50000x1.Idx) :
    i ∈ ((cfg3.win 3).blk t).view.set ↔ ∀ a : Fin 2, win3_3.index t a * S5000x1.size a ≤ (i a).val ∧ (i a).val < win3_3.index t a * S5000x1.size a + S5000x1.size a := by
  show i ∈ ((View.whole main_v52).slice (win3_3.rect t)).set ↔ _
  rw [View.set_slice_whole, Rect.mem_set_unit]
  exact Iff.rfl

/-- Every index of the result is in the block of the point its row falls under. -/
theorem cover3 (i : S50000x1.Idx) : ∃ t : Fin cfg3.N, (cfg3.win 3).flush t = true ∧ i ∈ ((cfg3.win 3).blk t).view.set := by
  have hN : cfg3.N = 10 := N_3
  have hi0 : (i 0).val < 50000 := (i 0).isLt
  have hi1 : (i 1).val < 1 := (i 1).isLt
  refine ⟨⟨(i 0).val / 5000, by omega⟩, flush3_3 _, ?_⟩
  rw [mem_blk3]
  obtain ⟨-, -, -, -, -, e0, e1⟩ := idx3 ⟨(i 0).val / 5000, by omega⟩
  intro a
  match a with
  | ⟨0, _⟩ => show win3_3.index _ 0 * 5000 ≤ (i 0).val ∧ (i 0).val < win3_3.index _ 0 * 5000 + 5000; rw [e0]; show (i 0).val / 5000 * 5000 ≤ (i 0).val ∧ (i 0).val < (i 0).val / 5000 * 5000 + 5000; omega
  | ⟨1, _⟩ => show win3_3.index _ 1 * 1 ≤ (i 1).val ∧ (i 1).val < win3_3.index _ 1 * 1 + 1; rw [e1]; omega

/-- The result array after the launch is the head on the whole arrays the launch finds. -/
theorem final3 (c : Dev nD) : (dat3 V c).arrAt 3 cfg3.N
    = Cert.Sage.head (V c main_v51) (V c main_arg11) (V c main_arg12) :=
  (dat3 V c).arrAt_eq_of_cover 3 _ (fun t _ => flushed3 V c t) (cover3)

end Cert.KernelIdeal.Hand

end
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.Chain.lean ====
/-
  The idealized kernel's fold, read layer by layer.

  The fold of the buffer contents through the program's seven segments (three stretches of host operations, four
  kernel launches) is read at the buffers the result depends on. From the launch memory: the first stretch leaves the
  two rows of the edge list, the degree column and the first aggregation; the first launch leaves the first layer's
  output (its launch's array is the whole-array layer of what it finds); the second stretch leaves the aggregation of
  that output; and so on through the third layer; the last launch leaves the head of the third layer's output. Between
  these, a buffer that a stretch does not write and that is no array of a launch keeps its contents, which is how the
  edge rows, the degree column, the weights and the biases reach the segment that reads them. At the end the result
  buffer holds the network function of the thirteen arguments.
-/
import proofs.«125428_j80556406604176_1_alg».proof.Proof.KernelIdealFrameP
import proofs.«125428_j80556406604176_1_alg».proof.Proof.Block0
import proofs.«125428_j80556406604176_1_alg».proof.Proof.Block1
import proofs.«125428_j80556406604176_1_alg».proof.Proof.Block2
import proofs.«125428_j80556406604176_1_alg».proof.Proof.Block3
import proofs.«125428_j80556406604176_1_alg».proof.Proof.LibWrittenRefs
import proofs.«125428_j80556406604176_1_alg».proof.Proof.Spec

set_option maxRecDepth 16384

noncomputable section

namespace Cert.KernelIdeal.Hand

open Idealize.ShloMosaic Idealize.ShloMosaic.TcCoe Idealize.SL.Sem
open Cert.KernelIdeal Cert.KernelIdeal.Gen Cert.KernelIdeal.GenP Cert.Sage

variable (m : (ℓ : Loc nD τ sig) → Buf (Elt Ideal) ℓ) (ρ : Dev nD → PrngReg)

/-! ## What each host stretch writes -/

/-- The buffers the three stretches write, in order. -/
abbrev wr0 : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24]
abbrev wr1 : List (Ref sig .tc) := [main_c_5, main_v26, main_v27, main_c_6, main_v28, main_v29, main_v30, main_v31, main_v32, main_cst_7, main_v33, main_v34, main_v35, main_v36, main_v37]
abbrev wr2 : List (Ref sig .tc) := [main_c_8, main_v39, main_v40, main_c_9, main_v41, main_v42, main_v43, main_v44, main_v45, main_cst_10, main_v46, main_v47, main_v48, main_v49, main_v50]

theorem hwr0 : (hostOps0 (F := Ideal)).map (fun op => op.writes) = wr0.map (fun r => ({Proc.devRef (τ := τ) .tc r} : Finset (DevRef τ sig))) := rfl
theorem hwr1 : (hostOps1 (F := Ideal)).map (fun op => op.writes) = wr1.map (fun r => ({Proc.devRef (τ := τ) .tc r} : Finset (DevRef τ sig))) := rfl
theorem hwr2 : (hostOps2 (F := Ideal)).map (fun op => op.writes) = wr2.map (fun r => ({Proc.devRef (τ := τ) .tc r} : Finset (DevRef τ sig))) := rfl

/-! ## A buffer nothing writes keeps its contents -/

/-- Across the first stretch. -/
theorem keep1 (c : Dev nD) {r : Ref sig .tc} (h0 : r ∉ wr0) : W1 m ρ c (Proc.devRef .tc r) = m ((c : Thread nD τ).loc r) :=
  StableHlo.after_of_map_writes_eq hwr0 _ h0

/-- Up to the second launch's entry. -/
theorem keep3 (c : Dev nD) {r : Ref sig .tc} (h0 : r ∉ wr0) (a0 : ∀ w, Pipeline.arrRef spec0 w ≠ r) (h1 : r ∉ wr1) :
    W3 m ρ c (Proc.devRef .tc r) = m ((c : Thread nD τ).loc r) :=
  (StableHlo.after_of_map_writes_eq hwr1 _ h1).trans ((W2_of_ne m ρ c r a0).trans (keep1 m ρ c h0))

/-- Up to the third launch's entry. -/
theorem keep5 (c : Dev nD) {r : Ref sig .tc} (h0 : r ∉ wr0) (a0 : ∀ w, Pipeline.arrRef spec0 w ≠ r) (h1 : r ∉ wr1)
    (a1 : ∀ w, Pipeline.arrRef spec1 w ≠ r) (h2 : r ∉ wr2) : W5 m ρ c (Proc.devRef .tc r) = m ((c : Thread nD τ).loc r) :=
  (StableHlo.after_of_map_writes_eq hwr2 _ h2).trans ((W4_of_ne m ρ c r a1).trans (keep3 m ρ c h0 a0 h1))

/-- Up to the last launch's entry. -/
theorem keep6 (c : Dev nD) {r : Ref sig .tc} (h0 : r ∉ wr0) (a0 : ∀ w, Pipeline.arrRef spec0 w ≠ r) (h1 : r ∉ wr1)
    (a1 : ∀ w, Pipeline.arrRef spec1 w ≠ r) (h2 : r ∉ wr2) (a2 : ∀ w, Pipeline.arrRef spec2 w ≠ r) :
    W6 m ρ c (Proc.devRef .tc r) = m ((c : Thread nD τ).loc r) :=
  (W6_of_ne m ρ c r a2).trans (keep5 m ρ c h0 a0 h1 a1 h2)

/-- What the first stretch leaves in a buffer is still there at the second stretch's entry, -/
theorem carry2 (c : Dev nD) (r : Ref sig .tc) (a0 : ∀ w, Pipeline.arrRef spec0 w ≠ r) :
    W2 m ρ c (Proc.devRef .tc r) = W1 m ρ c (Proc.devRef .tc r) := W2_of_ne m ρ c r a0

/-- and at the third stretch's entry. -/
theorem carry4 (c : Dev nD) {r : Ref sig .tc} (a0 : ∀ w, Pipeline.arrRef spec0 w ≠ r) (h1 : r ∉ wr1)
    (a1 : ∀ w, Pipeline.arrRef spec1 w ≠ r) : W4 m ρ c (Proc.devRef .tc r) = W1 m ρ c (Proc.devRef .tc r) :=
  (W4_of_ne m ρ c r a1).trans ((StableHlo.after_of_map_writes_eq hwr1 _ h1).trans (W2_of_ne m ρ c r a0))

/-! ## The values along the fold -/

/-- The edge rows, the degree column and the three layers' outputs, as functions of the launch memory. -/
def src (c : Dev nD) : IA Cert.ReferenceIdeal.S800000 := srcOf (m ((c : Thread nD τ).loc main_arg1))
def dst (c : Dev nD) : IA Cert.ReferenceIdeal.S800000 := dstOf (m ((c : Thread nD τ).loc main_arg1))
def dinv (c : Dev nD) : FA Cert.ReferenceIdeal.S50000x1 := degInv (dst m c)
def hid1 (c : Dev nD) : FA Cert.ReferenceIdeal.S50000x48 :=
  h1 (m ((c : Thread nD τ).loc main_arg0)) (src m c) (dst m c) (dinv m c) (m ((c : Thread nD τ).loc main_arg2)) (m ((c : Thread nD τ).loc main_arg3)) (m ((c : Thread nD τ).loc main_arg4))
def hid2 (c : Dev nD) : FA Cert.ReferenceIdeal.S50000x48 :=
  hNext (hid1 m c) (src m c) (dst m c) (dinv m c) (m ((c : Thread nD τ).loc main_arg5)) (m ((c : Thread nD τ).loc main_arg6)) (m ((c : Thread nD τ).loc main_arg7))
def hid3 (c : Dev nD) : FA Cert.ReferenceIdeal.S50000x48 :=
  hNext (hid2 m c) (src m c) (dst m c) (dinv m c) (m ((c : Thread nD τ).loc main_arg8)) (m ((c : Thread nD τ).loc main_arg9)) (m ((c : Thread nD τ).loc main_arg10))

/-- After the first stretch: the edge rows, -/
theorem w1_src (c : Dev nD) : W1 m ρ c (Proc.devRef .tc main_v1) = src m c := by
  show StableHlo.after hostOps0 (W0 m ρ c) (Proc.devRef .tc main_v1) = _
  after_results_simp
  rfl
theorem w1_dst (c : Dev nD) : W1 m ρ c (Proc.devRef .tc main_v3) = dst m c := by
  show StableHlo.after hostOps0 (W0 m ρ c) (Proc.devRef .tc main_v3) = _
  after_results_simp
  rfl
/-- the degree column, -/
theorem w1_dinv (c : Dev nD) : W1 m ρ c (Proc.devRef .tc main_v12) = dinv m c := by
  show StableHlo.after hostOps0 (W0 m ρ c) (Proc.devRef .tc main_v12) = _
  after_results_simp
  rfl
/-- and the aggregation of the input features. -/
theorem w1_agg (c : Dev nD) : W1 m ρ c (Proc.devRef .tc main_v24) = agg96 (m ((c : Thread nD τ).loc main_arg0)) (src m c) (dst m c) (dinv m c) := by
  show StableHlo.after hostOps0 (W0 m ρ c) (Proc.devRef .tc main_v24) = _
  after_results_simp
  rfl

/-- After the first launch: the first layer's output. -/
theorem w2_hid (c : Dev nD) : W2 m ρ c (Proc.devRef .tc main_v25) = hid1 m c := by
  refine (W2_arr m ρ c 5).trans ((final0 (V1 m ρ) c).trans ?_)
  show layer96 (W1 m ρ c (Proc.devRef .tc main_arg0)) (W1 m ρ c (Proc.devRef .tc main_v24)) (W1 m ρ c (Proc.devRef .tc main_arg2))
    (W1 m ρ c (Proc.devRef .tc main_arg3)) (W1 m ρ c (Proc.devRef .tc main_arg4)) = _
  rw [w1_agg, keep1 m ρ c (r := main_arg0) (by decide), keep1 m ρ c (r := main_arg2) (by decide),
    keep1 m ρ c (r := main_arg3) (by decide), keep1 m ρ c (r := main_arg4) (by decide)]
  rfl

/-- After the second stretch: the aggregation of the first layer's output, beside that output. -/
theorem w3_hid (c : Dev nD) : W3 m ρ c (Proc.devRef .tc main_v25) = hid1 m c :=
  (StableHlo.after_of_map_writes_eq hwr1 _ (by decide)).trans (w2_hid m ρ c)
theorem w3_agg (c : Dev nD) : W3 m ρ c (Proc.devRef .tc main_v37) = agg48 (hid1 m c) (src m c) (dst m c) (dinv m c) := by
  show StableHlo.after hostOps1 (W2 m ρ c) (Proc.devRef .tc main_v37) = _
  after_results_simp
  rw [w2_hid, carry2 m ρ c main_v1 (by decide), carry2 m ρ c main_v3 (by decide), carry2 m ρ c main_v12 (by decide),
    w1_src, w1_dst, w1_dinv]
  rfl

/-- After the second launch: the second layer's output. -/
theorem w4_hid (c : Dev nD) : W4 m ρ c (Proc.devRef .tc main_v38) = hid2 m c := by
  refine (W4_arr m ρ c 5).trans ((final1 (V3 m ρ) c).trans ?_)
  show layer48 (W3 m ρ c (Proc.devRef .tc main_v25)) (W3 m ρ c (Proc.devRef .tc main_v37)) (W3 m ρ c (Proc.devRef .tc main_arg5))
    (W3 m ρ c (Proc.devRef .tc main_arg6)) (W3 m ρ c (Proc.devRef .tc main_arg7)) = _
  rw [w3_hid, w3_agg, keep3 m ρ c (r := main_arg5) (by decide) (by decide) (by decide),
    keep3 m ρ c (r := main_arg6) (by decide) (by decide) (by decide), keep3 m ρ c (r := main_arg7) (by decide) (by decide) (by decide)]
  rfl

/-- After the third stretch: the aggregation of the second layer's output, beside that output. -/
theorem w5_hid (c : Dev nD) : W5 m ρ c (Proc.devRef .tc main_v38) = hid2 m c :=
  (StableHlo.after_of_map_writes_eq hwr2 _ (by decide)).trans (w4_hid m ρ c)
theorem w5_agg (c : Dev nD) : W5 m ρ c (Proc.devRef .tc main_v50) = agg48 (hid2 m c) (src m c) (dst m c) (dinv m c) := by
  show StableHlo.after hostOps2 (W4 m ρ c) (Proc.devRef .tc main_v50) = _
  after_results_simp
  rw [w4_hid, carry4 m ρ c (r := main_v1) (by decide) (by decide) (by decide), carry4 m ρ c (r := main_v3) (by decide) (by decide) (by decide),
    carry4 m ρ c (r := main_v12) (by decide) (by decide) (by decide), w1_src, w1_dst, w1_dinv]
  rfl

/-- After the third launch: the third layer's output. -/
theorem w6_hid (c : Dev nD) : W6 m ρ c (Proc.devRef .tc main_v51) = hid3 m c := by
  refine (W6_arr m ρ c 5).trans ((final2 (V5 m ρ) c).trans ?_)
  show layer48 (W5 m ρ c (Proc.devRef .tc main_v38)) (W5 m ρ c (Proc.devRef .tc main_v50)) (W5 m ρ c (Proc.devRef .tc main_arg8))
    (W5 m ρ c (Proc.devRef .tc main_arg9)) (W5 m ρ c (Proc.devRef .tc main_arg10)) = _
  rw [w5_hid, w5_agg, keep5 m ρ c (r := main_arg8) (by decide) (by decide) (by decide) (by decide) (by decide),
    keep5 m ρ c (r := main_arg9) (by decide) (by decide) (by decide) (by decide) (by decide),
    keep5 m ρ c (r := main_arg10) (by decide) (by decide) (by decide) (by decide) (by decide)]
  rfl

/-- After the last launch: the result buffer holds the network function of the thirteen arguments. -/
theorem w7_result (c : Dev nD) : W7 m ρ c (Proc.devRef .tc main_v52)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
        (m ((c : Thread nD τ).loc main_arg12)) := by
  refine (W7_arr m ρ c 3).trans ((final3 (V6 m ρ) c).trans ?_)
  show head (W6 m ρ c (Proc.devRef .tc main_v51)) (W6 m ρ c (Proc.devRef .tc main_arg11)) (W6 m ρ c (Proc.devRef .tc main_arg12)) = _
  rw [w6_hid, keep6 m ρ c (r := main_arg11) (by decide) (by decide) (by decide) (by decide) (by decide) (by decide),
    keep6 m ρ c (r := main_arg12) (by decide) (by decide) (by decide) (by decide) (by decide) (by decide)]
  rfl

end Cert.KernelIdeal.Hand

end
-- ==== Proof.RefSide.lean ====
/-
  The reference's result is the network function of its arguments.

  The reference program is a straight line of host operations; its run ends with the result buffer at the operations'
  composed term of the thirteen argument arrays. That term is the network function `Cert.Sage.net` spelt out: the two
  rows of the edge list, the degree column, and three times an aggregation followed by a dense layer, then the head —
  the same operations in the same order, so the equation holds by unfolding the definitions.
-/
import proofs.«125428_j80556406604176_1_alg».proof.Proof.Gen.ReferenceIdeal.Run
import proofs.«125428_j80556406604176_1_alg».proof.Proof.Spec

noncomputable section

namespace Cert.ReferenceIdeal.Hand

open Idealize.ShloMosaic Idealize.SL.Sem Cert.ReferenceIdeal

set_option maxRecDepth 8192 in
/-- The reference's composed result term is `net` of the launch contents of its arguments. -/
theorem result_eq (m : (ℓ : Loc nD τ sig) → Buf (Elt Ideal) ℓ) (c : Dev nD) :
    Cert.ReferenceIdeal.Value.res_main_v73 (F := Ideal) m c
      = Cert.Sage.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  unfold Cert.ReferenceIdeal.Value.res_main_v73 Cert.Sage.net Cert.Sage.head Cert.Sage.hNext Cert.Sage.h1 Cert.Sage.layer48
    Cert.Sage.layer96 Cert.Sage.agg48 Cert.Sage.agg96 Cert.Sage.srcCol Cert.Sage.degInv Cert.Sage.srcOf Cert.Sage.dstOf
  rfl

end Cert.ReferenceIdeal.Hand

end
-- ==== Proof.lean ====
/-
  The certificate of a three-layer graph network with mean aggregation and a linear head: the kernel program runs the
  dense part of each layer, `max (h · Ws + agg · Wn + b, 0)`, and the head, `h · w + b`, as pipelined kernels over blocks
  of 5000 rows, between host stretches that compute the aggregation (a row gather at the edges' sources, a scatter-add
  at their destinations, a product with `1 / max (deg, 1)`); the reference runs everything on the host as whole-array
  operations.

  On the extended reals the two programs compute the same function of the thirteen arguments, `Cert.Sage.net`:
    * the reference's composed result term is `net` by unfolding (`Cert.ReferenceIdeal.Hand.result_eq`);
    * each kernel launch leaves, in its output array, the whole-array layer of the arrays it finds — entry `(5000·t + p, q)`
      of the output is written by grid point `t` as two sums over the feature index, a bias entry and a maximum with
      zero, which are term for term the whole-array layer's at that entry (a change of float format is the identity on
      the extended reals), and the ten row blocks cover the output (`Cert.KernelIdeal.Hand.final0 … final3`);
    * the host stretches of the kernel program are the reference's own operations, so the fold of the buffer contents
      through the program's seven segments ends with the result buffer at `net` (`Cert.KernelIdeal.Hand.w7_result`).
  No entry is asked to be finite: the equations are between the same sums and products, so the precondition is not opened.
  The three frames are the programs' runs with the results dropped; the idealization rewrote no operation.
-/
import proofs.«125428_j80556406604176_1_alg».proof.Defs
import proofs.«125428_j80556406604176_1_alg».proof.Proof.Gen.Kernel
import proofs.«125428_j80556406604176_1_alg».proof.Proof.KernelFrameP
import proofs.«125428_j80556406604176_1_alg».proof.Proof.Gen.KernelIdeal
import proofs.«125428_j80556406604176_1_alg».proof.Proof.KernelIdealFrameP
import proofs.«125428_j80556406604176_1_alg».proof.Proof.Gen.ReferenceIdeal
import proofs.«125428_j80556406604176_1_alg».proof.Proof.Gen.ReferenceIdeal.Run
import proofs.«125428_j80556406604176_1_alg».proof.Proof.Gen.Pre_finite_inputs
import proofs.«125428_j80556406604176_1_alg».proof.Proof.KernelRun
import proofs.«125428_j80556406604176_1_alg».proof.Proof.Chain
import proofs.«125428_j80556406604176_1_alg».proof.Proof.RefSide
import Idealize.ShloMosaic.Adequacy
import Idealize.ShloMosaic.Init

noncomputable section

namespace Cert.Proof

open Idealize.ShloMosaic Idealize.SL.Sem

/-- The kernel program runs and leaves its arguments unchanged. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is a straight line of host operations: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result at the network function of the arguments they agree on. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.w7_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    beta_reduce
    rw [← e0, ← e1, ← e2, ← e3, ← e4, ← e5, ← e6, ← e7, ← e8, ← e9, ← e10, ← e11, ← e12]
    exact Cert.ReferenceIdeal.Hand.result_eq m' c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
